-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x512 : Shape := ⟨3, ![2048, 64, 512]⟩
abbrev S64x64x64 : Shape := ⟨3, ![64, 64, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S225x16 : Shape := ⟨2, ![225, 16]⟩
abbrev S64x64 : Shape := ⟨2, ![64, 64]⟩
abbrev S_ : Shape := ⟨0, ![]⟩

class Facts : Prop where
  bcast_S_S2048x64x512 : S_.BroadcastsInDim S2048x64x512 (![] : Fin 0 → Fin S2048x64x512.rank)
  reducesTo_S2048x64x512_S_d0_1_2 : S2048x64x512.ReducesTo [0, 1, 2] S_
  h_S_ : 0 < S_.numel
  bcast_S_S64x64x64 : S_.BroadcastsInDim S64x64x64 (![] : Fin 0 → Fin S64x64x64.rank)
  reducesTo_S64x64x64_S_d0_1_2 : S64x64x64.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S225x16 : S_.BroadcastsInDim S225x16 (![] : Fin 0 → Fin S225x16.rank)
  reducesTo_S225x16_S_d0_1 : S225x16.ReducesTo [0, 1] S_

variable [Facts]

def fn_part1 {F : FTy → Type} [FloatOps F] (main_arg4 : FVec F S512x512 .f32) (main_arg5 : FVec F S512 .f32) (main_arg6 : FVec F S225x16 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S225x16 .f32 := Host.absf main_arg6
  let main_cst_10 : FVec F S_ .f32 := constant S_ .f32 0x7F800000#32
  let main_v30 : FVec F S225x16 .f32 := broadcastInDim S225x16 ![] bcast_S_S225x16 main_cst_10
  let main_v31 : IVec S225x16 1 := cmpf .olt main_v29 main_v30
  let main_c_11 : IVec S_ 1 := constantI S_ 1 1#1
  let main_v32 : IVec S_ 1 := (fun x v => Host.reduce IntOp.andi x v reducesTo_S225x16_S_d0_1 h_S_) main_v31 main_c_11
  let main_v33 : IVec S_ 1 := andi main_v28 main_v32
  main_v33

def fn {F : FTy → Type} [FloatOps F] (main_arg0 : FVec F S2048x64x512 .f32) (main_arg1 : FVec F S64x64x64 .f32) (main_arg2 : FVec F S1536x512 .f32) (main_arg3 : FVec F S1536 .f32) (main_arg4 : FVec F S512x512 .f32) (main_arg5 : FVec F S512 .f32) (main_arg6 : FVec F S225x16 .f32) (main_arg7 : IVec S64x64 32) : IVec S_ 1 :=
  let main_v0 : FVec F S2048x64x512 .f32 := Host.absf main_arg0
  let main_cst : FVec F S_ .f32 := constant S_ .f32 0x7F800000#32
  let main_v1 : FVec F S2048x64x512 .f32 := broadcastInDim S2048x64x512 ![] bcast_S_S2048x64x512 main_cst
  let main_v2 : IVec S2048x64x512 1 := cmpf .olt main_v0 main_v1
  let main_c : IVec S_ 1 := constantI S_ 1 1#1
  let main_v3 : IVec S_ 1 := (fun x v => Host.reduce IntOp.andi x v reducesTo_S2048x64x512_S_d0_1_2 h_S_) main_v2 main_c
  let main_v4 : FVec F S64x64x64 .f32 := Host.absf main_arg1
  let main_cst_0 : FVec F S_ .f32 := constant S_ .f32 0x7F800000#32
  let main_v5 : FVec F S64x64x64 .f32 := broadcastInDim S64x64x64 ![] bcast_S_S64x64x64 main_cst_0
  let main_v6 : IVec S64x64x64 1 := cmpf .olt main_v4 main_v5
  let main_c_1 : IVec S_ 1 := constantI S_ 1 1#1
  let main_v7 : IVec S_ 1 := (fun x v => Host.reduce IntOp.andi x v reducesTo_S64x64x64_S_d0_1_2 h_S_) main_v6 main_c_1
  let main_v8 : IVec S_ 1 := andi main_v3 main_v7
  let main_v9 : FVec F S1536x512 .f32 := Host.absf main_arg2
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_arg6 main_v13 main_v16
-- ==== Kernel.lean ====
abbrev S2048x64x512 : Shape := ⟨3, ![2048, 64, 512]⟩
abbrev S64x64x64 : Shape := ⟨3, ![64, 64, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S225x16 : Shape := ⟨2, ![225, 16]⟩
abbrev S64x64 : Shape := ⟨2, ![64, 64]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S512x1536 : Shape := ⟨2, ![512, 1536]⟩
abbrev S8x64x512 : Shape := ⟨3, ![8, 64, 512]⟩
abbrev S8x64x64 : Shape := ⟨3, ![8, 64, 64]⟩
abbrev S1x1536 : Shape := ⟨2, ![1, 1536]⟩
abbrev S8x64x1536 : Shape := ⟨3, ![8, 64, 1536]⟩
abbrev S8x64x32 : Shape := ⟨3, ![8, 64, 32]⟩
abbrev S1x64x64 : Shape := ⟨3, ![1, 64, 64]⟩
abbrev S8x64 : Shape := ⟨2, ![8, 64]⟩
abbrev S8x64x1 : Shape := ⟨3, ![8, 64, 1]⟩
abbrev S1x512 : Shape := ⟨2, ![1, 512]⟩

abbrev nBuf : Space → Nat
  | .hbm => 25
  | .vmem => 11
  | .smem => 0
  | _ => 0

abbrev bufTy : (tb : Table) → Fin (tcTables nBuf tb) → BufTy
  | .hbm, ⟨0, _⟩ => ⟨S2048x64x512, .f32⟩
  | .hbm, ⟨1, _⟩ => ⟨S64x64x64, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S225x16, .f32⟩
  | .hbm, ⟨7, _⟩ => ⟨S64x64, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S4096x16, .f32⟩
  | .hbm, ⟨18, _⟩ => ⟨S64x64x16, .f32⟩
  | .hbm, ⟨19, _⟩ => ⟨S16x64x64, .f32⟩
  | .hbm, ⟨20, _⟩ => ⟨S1536x512, .bf16⟩
  | .hbm, ⟨21, _⟩ => ⟨S512x1536, .bf16⟩
  | .hbm, ⟨22, _⟩ => ⟨S512x512, .bf16⟩
  | .hbm, ⟨23, _⟩ => ⟨S512x512, .bf16⟩
  | .hbm, ⟨24, _⟩ => ⟨S2048x64x512, .f32⟩
  | .local _ .vmem, ⟨0, _⟩ => ⟨S8x64x512, .f32⟩
  | .local _ .vmem, ⟨1, _⟩ => ⟨S8x64x512, .f32⟩
  | .local _ .vmem, ⟨2, _⟩ => ⟨S512x1536, .bf16⟩
  | .local _ .vmem, ⟨3, _⟩ => ⟨S1536, .f32⟩
  | .local _ .vmem, ⟨4, _⟩ => ⟨S512x512, .bf16⟩
  | .local _ .vmem, ⟨5, _⟩ => ⟨S512, .f32⟩
  | .local _ .vmem, ⟨6, _⟩ => ⟨S16x64x64, .f32⟩
  | .local _ .vmem, ⟨7, _⟩ => ⟨S8x64x64, .f32⟩
  | .local _ .vmem, ⟨8, _⟩ => ⟨S8x64x64, .f32⟩
  | .local _ .vmem, ⟨9, _⟩ => ⟨S8x64x512, .f32⟩
  | .local _ .vmem, ⟨10, _⟩ => ⟨S8x64x512, .f32⟩
  | _, _ => ⟨S2048x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  bitsLt_bf16_f32 : FTy.bits .bf16 < FTy.bits .f32
  transposes_S1536x512_S512x1536_1_0 : S1536x512.Transposes [1, 0] S512x1536
  transposes_S512x512_S512x512_1_0 : S512x512.Transposes [1, 0] S512x512
  inb_S8x64x512_S8x64x512_0_0_0 : ∀ a, (![0, 0, 0] : Fin 3 → Nat) a + S8x64x512.size a ≤ S8x64x512.size a
  h_S8x64x512 : 0 < S8x64x512.numel
  shapeCasts_S8x64x512_S512x512 : S8x64x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S512x1536 : S1x1536.Broadcasts S512x1536
  shapeCasts_S512x1536_S8x64x1536 : S512x1536.ShapeCasts S8x64x1536
  inb_S16x64x64_S16x64x64_0_0_0 : ∀ a, (![0, 0, 0] : Fin 3 → Nat) a + S16x64x64.size a ≤ S16x64x64.size a
  h_S16x64x64 : 0 < S16x64x64.numel
  shapeCasts_S16x64x64_S16x64x64 : S16x64x64.ShapeCasts S16x64x64
  inb_S8x64x64_S8x64x64_0_0_0 : ∀ a, (![0, 0, 0] : Fin 3 → Nat) a + S8x64x64.size a ≤ S8x64x64.size a
  h_S8x64x64 : 0 < S8x64x64.numel
  slices_S8x64x1536_o0_0_0_S8x64x32 : S8x64x1536.Slices ![0, 0, 0] S8x64x32
  slices_S8x64x1536_o0_0_512_S8x64x32 : S8x64x1536.Slices ![0, 0, 512] S8x64x32
  slices_S8x64x1536_o0_0_1024_S8x64x32 : S8x64x1536.Slices ![0, 0, 1024] S8x64x32
  slices_S16x64x64_o0_0_0_S1x64x64 : S16x64x64.Slices ![0, 0, 0] S1x64x64
  shapeCasts_S1x64x64_S64x64 : S1x64x64.ShapeCasts S64x64
  shapeCasts_S64x64_S1x64x64 : S64x64.ShapeCasts S1x64x64
  broadcasts_S1x64x64_S8x64x64 : S1x64x64.Broadcasts S8x64x64
  reduces_S8x64x64_S8x64 : S8x64x64.Reduces [2] S8x64
  shapeCasts_S8x64_S8x64x1 : S8x64.ShapeCasts S8x64x1
  broadcasts_S8x64x1_S8x64x64 : S8x64x1.Broadcasts S8x64x64
  slices_S8x64x1536_o0_0_32_S8x64x32 : S8x64x1536.Slices ![0, 0, 32] S8x64x32
  slices_S8x64x1536_o0_0_544_S8x64x32 : S8x64x1536.Slices ![0, 0, 544] S8x64x32
  slices_S8x64x1536_o0_0_1056_S8x64x32 : S8x64x1536.Slices ![0, 0, 1056] S8x64x32
  slices_S16x64x64_o1_0_0_S1x64x64 : S16x64x64.Slices ![1, 0, 0] S1x64x64
  slices_S8x64x1536_o0_0_64_S8x64x32 : S8x64x1536.Slices ![0, 0, 64] S8x64x32
  slices_S8x64x1536_o0_0_576_S8x64x32 : S8x64x1536.Slices ![0, 0, 576] S8x64x32
  slices_S8x64x1536_o0_0_1088_S8x64x32 : S8x64x1536.Slices ![0, 0, 1088] S8x64x32
  slices_S16x64x64_o2_0_0_S1x64x64 : S16x64x64.Slices ![2, 0, 0] S1x64x64
  slices_S8x64x1536_o0_0_96_S8x64x32 : S8x64x1536.Slices ![0, 0, 96] S8x64x32
  slices_S8x64x1536_o0_0_608_S8x64x32 : S8x64x1536.Slices ![0, 0, 608] S8x64x32
  slices_S8x64x1536_o0_0_1120_S8x64x32 : S8x64x1536.Slices ![0, 0, 1120] S8x64x32
  slices_S16x64x64_o3_0_0_S1x64x64 : S16x64x64.Slices ![3, 0, 0] S1x64x64
  slices_S8x64x1536_o0_0_128_S8x64x32 : S8x64x1536.Slices ![0, 0, 128] S8x64x32
  slices_S8x64x1536_o0_0_640_S8x64x32 : S8x64x1536.Slices ![0, 0, 640] S8x64x32
  slices_S8x64x1536_o0_0_1152_S8x64x32 : S8x64x1536.Slices ![0, 0, 1152] S8x64x32
  slices_S16x64x64_o4_0_0_S1x64x64 : S16x64x64.Slices ![4, 0, 0] S1x64x64
  slices_S8x64x1536_o0_0_160_S8x64x32 : S8x64x1536.Slices ![0, 0, 160] S8x64x32
  slices_S8x64x1536_o0_0_672_S8x64x32 : S8x64x1536.Slices ![0, 0, 672] S8x64x32
  slices_S8x64x1536_o0_0_1184_S8x64x32 : S8x64x1536.Slices ![0, 0, 1184] S8x64x32
  slices_S16x64x64_o5_0_0_S1x64x64 : S16x64x64.Slices ![5, 0, 0] S1x64x64
  slices_S8x64x1536_o0_0_192_S8x64x32 : S8x64x1536.Slices ![0, 0, 192] S8x64x32
  slices_S8x64x1536_o0_0_704_S8x64x32 : S8x64x1536.Slices ![0, 0, 704] S8x64x32
  slices_S8x64x1536_o0_0_1216_S8x64x32 : S8x64x1536.Slices ![0, 0, 1216] S8x64x32
  slices_S16x64x64_o6_0_0_S1x64x64 : S16x64x64.Slices ![6, 0, 0] S1x64x64
  slices_S8x64x1536_o0_0_224_S8x64x32 : S8x64x1536.Slices ![0, 0, 224] S8x64x32
  slices_S8x64x1536_o0_0_736_S8x64x32 : S8x64x1536.Slices ![0, 0, 736] S8x64x32
  slices_S8x64x1536_o0_0_1248_S8x64x32 : S8x64x1536.Slices ![0, 0, 1248] S8x64x32
  slices_S16x64x64_o7_0_0_S1x64x64 : S16x64x64.Slices ![7, 0, 0] S1x64x64
  slices_S8x64x1536_o0_0_256_S8x64x32 : S8x64x1536.Slices ![0, 0, 256] S8x64x32
  slices_S8x64x1536_o0_0_768_S8x64x32 : S8x64x1536.Slices ![0, 0, 768] S8x64x32
  slices_S8x64x1536_o0_0_1280_S8x64x32 : S8x64x1536.Slices ![0, 0, 1280] S8x64x32
  slices_S16x64x64_o8_0_0_S1x64x64 : S16x64x64.Slices ![8, 0, 0] S1x64x64
  slices_S8x64x1536_o0_0_288_S8x64x32 : S8x64x1536.Slices ![0, 0, 288] S8x64x32
  slices_S8x64x1536_o0_0_800_S8x64x32 : S8x64x1536.Slices ![0, 0, 800] S8x64x32
  slices_S8x64x1536_o0_0_1312_S8x64x32 : S8x64x1536.Slices ![0, 0, 1312] S8x64x32
  slices_S16x64x64_o9_0_0_S1x64x64 : S16x64x64.Slices ![9, 0, 0] S1x64x64
  slices_S8x64x1536_o0_0_320_S8x64x32 : S8x64x1536.Slices ![0, 0, 320] S8x64x32
  slices_S8x64x1536_o0_0_832_S8x64x32 : S8x64x1536.Slices ![0, 0, 832] S8x64x32
  slices_S8x64x1536_o0_0_1344_S8x64x32 : S8x64x1536.Slices ![0, 0, 1344] S8x64x32
  slices_S16x64x64_o10_0_0_S1x64x64 : S16x64x64.Slices ![10, 0, 0] S1x64x64
  slices_S8x64x1536_o0_0_352_S8x64x32 : S8x64x1536.Slices ![0, 0, 352] S8x64x32
  slices_S8x64x1536_o0_0_864_S8x64x32 : S8x64x1536.Slices ![0, 0, 864] S8x64x32
  slices_S8x64x1536_o0_0_1376_S8x64x32 : S8x64x1536.Slices ![0, 0, 1376] S8x64x32
  slices_S16x64x64_o11_0_0_S1x64x64 : S16x64x64.Slices ![11, 0, 0] S1x64x64
  slices_S8x64x1536_o0_0_384_S8x64x32 : S8x64x1536.Slices ![0, 0, 384] S8x64x32
  slices_S8x64x1536_o0_0_896_S8x64x32 : S8x64x1536.Slices ![0, 0, 896] S8x64x32
  slices_S8x64x1536_o0_0_1408_S8x64x32 : S8x64x1536.Slices ![0, 0, 1408] S8x64x32
  slices_S16x64x64_o12_0_0_S1x64x64 : S16x64x64.Slices ![12, 0, 0] S1x64x64
  slices_S8x64x1536_o0_0_416_S8x64x32 : S8x64x1536.Slices ![0, 0, 416] S8x64x32
  slices_S8x64x1536_o0_0_928_S8x64x32 : S8x64x1536.Slices ![0, 0, 928] S8x64x32
  slices_S8x64x1536_o0_0_1440_S8x64x32 : S8x64x1536.Slices ![0, 0, 1440] S8x64x32
  slices_S16x64x64_o13_0_0_S1x64x64 : S16x64x64.Slices ![13, 0, 0] S1x64x64
  slices_S8x64x1536_o0_0_448_S8x64x32 : S8x64x1536.Slices ![0, 0, 448] S8x64x32
  slices_S8x64x1536_o0_0_960_S8x64x32 : S8x64x1536.Slices ![0, 0, 960] S8x64x32
  slices_S8x64x1536_o0_0_1472_S8x64x32 : S8x64x1536.Slices ![0, 0, 1472] S8x64x32
  slices_S16x64x64_o14_0_0_S1x64x64 : S16x64x64.Slices ![14, 0, 0] S1x64x64
  slices_S8x64x1536_o0_0_480_S8x64x32 : S8x64x1536.Slices ![0, 0, 480] S8x64x32
  slices_S8x64x1536_o0_0_992_S8x64x32 : S8x64x1536.Slices ![0, 0, 992] S8x64x32
  slices_S8x64x1536_o0_0_1504_S8x64x32 : S8x64x1536.Slices ![0, 0, 1504] S8x64x32
  slices_S16x64x64_o15_0_0_S1x64x64 : S16x64x64.Slices ![15, 0, 0] S1x64x64
  concatenates_S8x64x32_S8x64x32_S8x64x32_S8x64x32_S8x64x32_S8x64x32_S8x64x32_S8x64x32_S8x64x32_S8x64x32_S8x64x32_S8x64x32_S8x64x32_S8x64x32_S8x64x32_S8x64x32_S8x64x512_d2 : Shape.Concatenates [S8x64x32, S8x64x32, S8x64x32, S8x64x32, S8x64x32, S8x64x32, S8x64x32, S8x64x32, S8x64x32, S8x64x32, S8x64x32, S8x64x32, S8x64x32, S8x64x32, S8x64x32, S8x64x32] S8x64x512 2
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  shapeCasts_S512x512_S8x64x512 : S512x512.ShapeCasts S8x64x512
  gather_S225x16_S4096x1_S4096x16_1_0_n_n_0_1_116_wf : GatherDims.WF S225x16 S4096x1 S4096x16 [1] [0] [] [0] [] 1 ![1, 16]
  dot_S512x512_S512x1536_S512x1536_1_0_0_1_n_n_wf : DotDims.WF S512x512 S512x1536 S512x1536 [1] [0] [0] [1] [] []
  dot_S8x64x32_S8x64x32_S8x64x64_2_2_1_1_0_0_wf : DotDims.WF S8x64x32 S8x64x32 S8x64x64 [2] [2] [1] [1] [0] [0]
  dot_S8x64x64_S8x64x32_S8x64x32_2_1_1_2_0_0_wf : DotDims.WF S8x64x64 S8x64x32 S8x64x32 [2] [1] [1] [2] [0] [0]
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x512.size a ≤ S2048x64x512.size a
  hwx0_0 : ∀ i : grid0.Coords, EltTy.bits .f32 = 32 ∨ (Rect.block (s := S2048x64x512) S8x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .bf16 = 32 ∨ (Rect.block (s := S512x1536) S512x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64x64.size a ≤ S16x64x64.size a
  hwx0_5 : ∀ i : grid0.Coords, EltTy.bits .f32 = 32 ∨ (Rect.block (s := S16x64x64) S16x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64x64.size a ≤ S64x64x64.size a
  hwx0_6 : ∀ i : grid0.Coords, EltTy.bits .f32 = 32 ∨ (Rect.block (s := S64x64x64) S8x64x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64x512.size a ≤ S2048x64x512.size a
  hwx0_7 : ∀ i : grid0.Coords, EltTy.bits .f32 = 32 ∨ (Rect.block (s := S2048x64x512) S8x64x512.size (cc0_transform_7 i) (hinb0_7 i)).WholeWords (EltTy.packing .f32)

variable [Facts₀]

def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S8x64x32_S8x64x32_S8x64x64_2_2_1_1_0_0 : DotDims S8x64x32 S8x64x32 S8x64x64 where
  lhsContracting := [2]
  rhsContracting := [2]
  lhsNonContracting := [1]
  rhsNonContracting := [1]
  lhsBatch := [0]
  rhsBatch := [0]
  wf := dot_S8x64x32_S8x64x32_S8x64x64_2_2_1_1_0_0_wf
def dot_S8x64x64_S8x64x32_S8x64x32_2_1_1_2_0_0 : DotDims S8x64x64 S8x64x32 S8x64x32 where
  lhsContracting := [2]
  rhsContracting := [1]
  lhsNonContracting := [1]
  rhsNonContracting := [2]
  lhsBatch := [0]
  rhsBatch := [0]
  wf := dot_S8x64x64_S8x64x32_S8x64x32_2_1_1_2_0_0_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S8x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S16x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S8x64x64.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S8x64x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x64x512 : Shape := ⟨3, ![2048, 64, 512]⟩
abbrev S64x64x64 : Shape := ⟨3, ![64, 64, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S225x16 : Shape := ⟨2, ![225, 16]⟩
abbrev S64x64 : Shape := ⟨2, ![64, 64]⟩
abbrev S2048x64x1536 : Shape := ⟨3, ![2048, 64, 1536]⟩
abbrev S1x1x1536 : Shape := ⟨3, ![1, 1, 1536]⟩
abbrev S2048x64x3x16x32 : Shape := ⟨5, ![2048, 64, 3, 16, 32]⟩
abbrev S3x2048x16x64x32 : Shape := ⟨5, ![3, 2048, 16, 64, 32]⟩
abbrev S1x2048x16x64x32 : Shape := ⟨5, ![1, 2048, 16, 64, 32]⟩
abbrev S2048x16x64x32 : Shape := ⟨4, ![2048, 16, 64, 32]⟩
abbrev S_ : Shape := ⟨0, ![]⟩
abbrev S2048x16x64x64 : Shape := ⟨4, ![2048, 16, 64, 64]⟩
abbrev S4096 : Shape := ⟨1, ![4096]⟩
abbrev S4096x1 : Shape := ⟨2, ![4096, 1]⟩
abbrev S4096x16 : Shape := ⟨2, ![4096, 16]⟩
abbrev S64x64x16 : Shape := ⟨3, ![64, 64, 16]⟩
abbrev S16x64x64 : Shape := ⟨3, ![16, 64, 64]⟩
abbrev S1x16x64x64 : Shape := ⟨4, ![1, 16, 64, 64]⟩
abbrev S32x64x16x64x64 : Shape := ⟨5, ![32, 64, 16, 64, 64]⟩
abbrev S1x64x1x64x64 : Shape := ⟨5, ![1, 64, 1, 64, 64]⟩
abbrev S2048x16x64 : Shape := ⟨3, ![2048, 16, 64]⟩
abbrev S2048x16x64x1 : Shape := ⟨4, ![2048, 16, 64, 1]⟩
abbrev S2048x64x16x32 : Shape := ⟨4, ![2048, 64, 16, 32]⟩
abbrev S1x1x512 : Shape := ⟨3, ![1, 1, 512]⟩

abbrev nBuf : Space → Nat
  | .hbm => 65
  | .vmem => 0
  | .smem => 0
  | _ => 0

abbrev bufTy : (tb : Table) → Fin (tcTables nBuf tb) → BufTy
  | .hbm, ⟨0, _⟩ => ⟨S2048x64x512, .f32⟩
  | .hbm, ⟨1, _⟩ => ⟨S64x64x64, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S225x16, .f32⟩
  | .hbm, ⟨7, _⟩ => ⟨S64x64, .i32⟩
  | .hbm, ⟨8, _⟩ => ⟨S2048x64x1536, .f32⟩
  | .hbm, ⟨9, _⟩ => ⟨S1x1x1536, .f32⟩
  | .hbm, ⟨10, _⟩ => ⟨S2048x64x1536, .f32⟩
  | .hbm, ⟨11, _⟩ => ⟨S2048x64x1536, .f32⟩
  | .hbm, ⟨12, _⟩ => ⟨S2048x64x3x16x32, .f32⟩
  | .hbm, ⟨13, _⟩ => ⟨S3x2048x16x64x32, .f32⟩
  | .hbm, ⟨14, _⟩ => ⟨S1x2048x16x64x32, .f32⟩
  | .hbm, ⟨15, _⟩ => ⟨S2048x16x64x32, .f32⟩
  | .hbm, ⟨16, _⟩ => ⟨S1x2048x16x64x32, .f32⟩
  | .hbm, ⟨17, _⟩ => ⟨S2048x16x64x32, .f32⟩
  | .hbm, ⟨18, _⟩ => ⟨S1x2048x16x64x32, .f32⟩
  | .hbm, ⟨19, _⟩ => ⟨S2048x16x64x32, .f32⟩
  | .hbm, ⟨20, _⟩ => ⟨S_, .f32⟩
  | .hbm, ⟨21, _⟩ => ⟨S2048x16x64x32, .f32⟩
  | .hbm, ⟨22, _⟩ => ⟨S2048x16x64x32, .f32⟩
  | .hbm, ⟨23, _⟩ => ⟨S2048x16x64x64, .f32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x16, .f32⟩
  | .hbm, ⟨34, _⟩ => ⟨S64x64x16, .f32⟩
  | .hbm, ⟨35, _⟩ => ⟨S16x64x64, .f32⟩
  | .hbm, ⟨36, _⟩ => ⟨S1x16x64x64, .f32⟩
  | .hbm, ⟨37, _⟩ => ⟨S2048x16x64x64, .f32⟩
  | .hbm, ⟨38, _⟩ => ⟨S2048x16x64x64, .f32⟩
  | .hbm, ⟨39, _⟩ => ⟨S32x64x16x64x64, .f32⟩
  | .hbm, ⟨40, _⟩ => ⟨S1x64x1x64x64, .f32⟩
  | .hbm, ⟨41, _⟩ => ⟨S32x64x16x64x64, .f32⟩
  | .hbm, ⟨42, _⟩ => ⟨S32x64x16x64x64, .f32⟩
  | .hbm, ⟨43, _⟩ => ⟨S2048x16x64x64, .f32⟩
  | .hbm, ⟨44, _⟩ => ⟨S_, .f32⟩
  | .hbm, ⟨45, _⟩ => ⟨S2048x16x64, .f32⟩
  | .hbm, ⟨46, _⟩ => ⟨S_, .f32⟩
  | .hbm, ⟨47, _⟩ => ⟨S2048x16x64, .f32⟩
  | .hbm, ⟨48, _⟩ => ⟨S2048x16x64, .f32⟩
  | .hbm, ⟨49, _⟩ => ⟨S2048x16x64x1, .f32⟩
  | .hbm, ⟨50, _⟩ => ⟨S2048x16x64x64, .f32⟩
  | .hbm, ⟨51, _⟩ => ⟨S2048x16x64x64, .f32⟩
  | .hbm, ⟨52, _⟩ => ⟨S2048x16x64x64, .f32⟩
  | .hbm, ⟨53, _⟩ => ⟨S_, .f32⟩
  | .hbm, ⟨54, _⟩ => ⟨S2048x16x64, .f32⟩
  | .hbm, ⟨55, _⟩ => ⟨S2048x16x64x1, .f32⟩
  | .hbm, ⟨56, _⟩ => ⟨S2048x16x64x64, .f32⟩
  | .hbm, ⟨57, _⟩ => ⟨S2048x16x64x64, .f32⟩
  | .hbm, ⟨58, _⟩ => ⟨S2048x16x64x32, .f32⟩
  | .hbm, ⟨59, _⟩ => ⟨S2048x64x16x32, .f32⟩
  | .hbm, ⟨60, _⟩ => ⟨S2048x64x512, .f32⟩
  | .hbm, ⟨61, _⟩ => ⟨S2048x64x512, .f32⟩
  | .hbm, ⟨62, _⟩ => ⟨S1x1x512, .f32⟩
  | .hbm, ⟨63, _⟩ => ⟨S2048x64x512, .f32⟩
  | .hbm, ⟨64, _⟩ => ⟨S2048x64x512, .f32⟩
  | _, _ => ⟨S2048x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  bcast_S1536_S1x1x1536_2 : S1536.BroadcastsInDim S1x1x1536 (![2] : Fin 1 → Fin S1x1x1536.rank)
  bcast_S1x1x1536_S2048x64x1536_0_1_2 : S1x1x1536.BroadcastsInDim S2048x64x1536 (![0, 1, 2] : Fin 3 → Fin S2048x64x1536.rank)
  shapeCasts_S2048x64x1536_S2048x64x3x16x32 : S2048x64x1536.ShapeCasts S2048x64x3x16x32
  transposes_S2048x64x3x16x32_S3x2048x16x64x32_2_0_3_1_4 : S2048x64x3x16x32.Transposes [2, 0, 3, 1, 4] S3x2048x16x64x32
  slices_S3x2048x16x64x32_S1x2048x16x64x32_0_0_0_0_0 : S3x2048x16x64x32.Slices ![0, 0, 0, 0, 0] S1x2048x16x64x32
  shapeCasts_S1x2048x16x64x32_S2048x16x64x32 : S1x2048x16x64x32.ShapeCasts S2048x16x64x32
  slices_S3x2048x16x64x32_S1x2048x16x64x32_1_0_0_0_0 : S3x2048x16x64x32.Slices ![1, 0, 0, 0, 0] S1x2048x16x64x32
  slices_S3x2048x16x64x32_S1x2048x16x64x32_2_0_0_0_0 : S3x2048x16x64x32.Slices ![2, 0, 0, 0, 0] S1x2048x16x64x32
  bcast_S_S2048x16x64x32 : S_.BroadcastsInDim S2048x16x64x32 (![] : Fin 0 → Fin S2048x16x64x32.rank)
  shapeCasts_S64x64_S4096 : S64x64.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  shapeCasts_S4096x16_S64x64x16 : S4096x16.ShapeCasts S64x64x16
  transposes_S64x64x16_S16x64x64_2_0_1 : S64x64x16.Transposes [2, 0, 1] S16x64x64
  bcast_S16x64x64_S1x16x64x64_1_2_3 : S16x64x64.BroadcastsInDim S1x16x64x64 (![1, 2, 3] : Fin 3 → Fin S1x16x64x64.rank)
  bcast_S1x16x64x64_S2048x16x64x64_0_1_2_3 : S1x16x64x64.BroadcastsInDim S2048x16x64x64 (![0, 1, 2, 3] : Fin 4 → Fin S2048x16x64x64.rank)
  shapeCasts_S2048x16x64x64_S32x64x16x64x64 : S2048x16x64x64.ShapeCasts S32x64x16x64x64
  bcast_S64x64x64_S1x64x1x64x64_1_3_4 : S64x64x64.BroadcastsInDim S1x64x1x64x64 (![1, 3, 4] : Fin 3 → Fin S1x64x1x64x64.rank)
  bcast_S1x64x1x64x64_S32x64x16x64x64_0_1_2_3_4 : S1x64x1x64x64.BroadcastsInDim S32x64x16x64x64 (![0, 1, 2, 3, 4] : Fin 5 → Fin S32x64x16x64x64.rank)
  shapeCasts_S32x64x16x64x64_S2048x16x64x64 : S32x64x16x64x64.ShapeCasts S2048x16x64x64
  reducesTo_S2048x16x64x64_S2048x16x64_d3 : S2048x16x64x64.ReducesTo [3] S2048x16x64
  h_S_ : 0 < S_.numel
  bcast_S_S2048x16x64 : S_.BroadcastsInDim S2048x16x64 (![] : Fin 0 → Fin S2048x16x64.rank)
  bcast_S2048x16x64_S2048x16x64x1_0_1_2 : S2048x16x64.BroadcastsInDim S2048x16x64x1 (![0, 1, 2] : Fin 3 → Fin S2048x16x64x1.rank)
  bcast_S2048x16x64x1_S2048x16x64x64_0_1_2_3 : S2048x16x64x1.BroadcastsInDim S2048x16x64x64 (![0, 1, 2, 3] : Fin 4 → Fin S2048x16x64x64.rank)
  transposes_S2048x16x64x32_S2048x64x16x32_0_2_1_3 : S2048x16x64x32.Transposes [0, 2, 1, 3] S2048x64x16x32
  shapeCasts_S2048x64x16x32_S2048x64x512 : S2048x64x16x32.ShapeCasts S2048x64x512
  bcast_S512_S1x1x512_2 : S512.BroadcastsInDim S1x1x512 (![2] : Fin 1 → Fin S1x1x512.rank)
  bcast_S1x1x512_S2048x64x512_0_1_2 : S1x1x512.BroadcastsInDim S2048x64x512 (![0, 1, 2] : Fin 3 → Fin S2048x64x512.rank)
  dot_S2048x64x512_S1536x512_S2048x64x1536_2_1_01_0_n_n_wf : DotDims.WF S2048x64x512 S1536x512 S2048x64x1536 [2] [1] [0, 1] [0] [] []
  dot_S2048x16x64x32_S2048x16x64x32_S2048x16x64x64_3_3_2_2_01_01_wf : DotDims.WF S2048x16x64x32 S2048x16x64x32 S2048x16x64x64 [3] [3] [2] [2] [0, 1] [0, 1]
  gather_S225x16_S4096x1_S4096x16_1_0_n_n_0_1_116_wf : GatherDims.WF S225x16 S4096x1 S4096x16 [1] [0] [] [0] [] 1 ![1, 16]
  dot_S2048x16x64x64_S2048x16x64x32_S2048x16x64x32_3_2_2_3_01_01_wf : DotDims.WF S2048x16x64x64 S2048x16x64x32 S2048x16x64x32 [3] [2] [2] [3] [0, 1] [0, 1]
  dot_S2048x64x512_S512x512_S2048x64x512_2_1_01_0_n_n_wf : DotDims.WF S2048x64x512 S512x512 S2048x64x512 [2] [1] [0, 1] [0] [] []

variable [Facts₀]

def dot_S2048x64x512_S1536x512_S2048x64x1536_2_1_01_0_n_n : DotDims S2048x64x512 S1536x512 S2048x64x1536 where
  lhsContracting := [2]
  rhsContracting := [1]
  lhsNonContracting := [0, 1]
  rhsNonContracting := [0]
  lhsBatch := []
  rhsBatch := []
  wf := dot_S2048x64x512_S1536x512_S2048x64x1536_2_1_01_0_n_n_wf
def dot_S2048x16x64x32_S2048x16x64x32_S2048x16x64x64_3_3_2_2_01_01 : DotDims S2048x16x64x32 S2048x16x64x32 S2048x16x64x64 where
  lhsContracting := [3]
  rhsContracting := [3]
  lhsNonContracting := [2]
  rhsNonContracting := [2]
  lhsBatch := [0, 1]
  rhsBatch := [0, 1]
  wf := dot_S2048x16x64x32_S2048x16x64x32_S2048x16x64x64_3_3_2_2_01_01_wf
def gather_S225x16_S4096x1_S4096x16_1_0_n_n_0_1_116 : GatherDims S225x16 S4096x1 S4096x16 where
  offsetDims := [1]
  collapsedSliceDims := [0]
  operandBatchingDims := []
  startIndicesBatchingDims := []
  startIndexMap := [0]
  indexVectorDim := 1
  sliceSizes := ![1, 16]
  wf := gather_S225x16_S4096x1_S4096x16_1_0_n_n_0_1_116_wf
def dot_S2048x16x64x64_S2048x16x64x32_S2048x16x64x32_3_2_2_3_01_01 : DotDims S2048x16x64x64 S2048x16x64x32 S2048x16x64x32 where
  lhsContracting := [3]
  rhsContracting := [2]
  lhsNonContracting := [2]
  rhsNonContracting := [3]
  lhsBatch := [0, 1]
  rhsBatch := [0, 1]
  wf := dot_S2048x16x64x64_S2048x16x64x32_S2048x16x64x32_3_2_2_3_01_01_wf
def dot_S2048x64x512_S512x512_S2048x64x512_2_1_01_0_n_n : DotDims S2048x64x512 S512x512 S2048x64x512 where
  lhsContracting := [2]
  rhsContracting := [1]
  lhsNonContracting := [0, 1]
  rhsNonContracting := [0]
  lhsBatch := []
  rhsBatch := []
  wf := dot_S2048x64x512_S512x512_S2048x64x512_2_1_01_0_n_n_wf

class Facts : Prop extends Facts₀ where

variable [Facts]
-- ==== Proof.Spec.lean ====
/-
  Windowed multi-head attention over [2048, 64, 512] (2048 windows of 64 tokens, 16 heads of width 32), as ONE
  function of the argument arrays, index by index, on the extended reals.

  For window b, token n, output column e:
    qkv(b, n, e')   = Σ_{c<512} x(b, n, c) · w(e', c) + qb(e')                       (e' < 1536: q | k | v, 512 columns each)
    score(b,h,i,j)  = Σ_{d<32} (qkv(b, i, 32h+d) · σ) · qkv(b, j, 512+32h+d) + bias(h,i,j) + mask(b mod 64, i, j)
    prob(b,h,i,j)   = exp(score(b,h,i,j) − M) / Σ_{k<64} exp(score(b,h,i,k) − M),   M = max(−∞, max_k score(b,h,i,k))
    attn(b,h,i,d)   = Σ_{j<64} prob(b,h,i,j) · qkv(b, j, 1024+32h+d)
    G(b, n, e)      = Σ_{c<512} attn(b, c/32, n, c mod 32) · pw(e, c) + pb(e)
  σ is the single-precision word nearest 32^(-1/2), kept as its word: both programs multiply q by the same word, so its
  value is never needed. −∞ likewise is the word 0xFF800000. The relative-position bias array bias[16,64,64] is an
  argument here: both programs compute it by the same gather from the bias table, before anything else.
-/
import Idealize.ShloMosaic.PureOps.Ideal
import Idealize.ShloMosaic.Lib.ValueIdx

noncomputable section

open scoped BigOperators

namespace WinAttn

open Idealize.ShloMosaic Idealize.ShloMosaic.ValueIdx

/-- The scale word: the float nearest 32^(-1/2). -/
abbrev scaleW : EReal := Ideal.ofBits .f32 0x3E3504F3#32
/-- The word of −∞, the softmax's starting maximum. -/
abbrev negInfW : EReal := Ideal.ofBits .f32 0xFF800000#32

/-- Column of q for head h, lane d. -/
abbrev qcol (h : Fin 16) (d : Fin 32) : Fin 1536 := ⟨32 * h.val + d.val, by omega⟩
/-- Column of k for head h, lane d. -/
abbrev kcol (h : Fin 16) (d : Fin 32) : Fin 1536 := ⟨512 + (32 * h.val + d.val), by omega⟩
/-- Column of v for head h, lane d. -/
abbrev vcol (h : Fin 16) (d : Fin 32) : Fin 1536 := ⟨1024 + (32 * h.val + d.val), by omega⟩
/-- The mask row of window b: windows repeat with period 64. -/
abbrev mrow (b : Fin 2048) : Fin 64 := ⟨b.val % 64, Nat.mod_lt _ (by decide)⟩
/-- The head a concatenated column belongs to. -/
abbrev headOf (c : Fin 512) : Fin 16 := ⟨c.val / 32, by omega⟩
/-- The lane of a concatenated column inside its head. -/
abbrev laneOf (c : Fin 512) : Fin 32 := ⟨c.val % 32, Nat.mod_lt _ (by decide)⟩

variable (x : (⟨3, ![2048, 64, 512]⟩ : Shape).Idx → EReal) (mask : (⟨3, ![64, 64, 64]⟩ : Shape).Idx → EReal)
  (w : (⟨2, ![1536, 512]⟩ : Shape).Idx → EReal) (qb : (⟨1, ![1536]⟩ : Shape).Idx → EReal)
  (pw : (⟨2, ![512, 512]⟩ : Shape).Idx → EReal) (pb : (⟨1, ![512]⟩ : Shape).Idx → EReal)
  (bias : (⟨3, ![16, 64, 64]⟩ : Shape).Idx → EReal)

/-- The fused q | k | v projection of token n of window b, column e. -/
def qkvS (b : Fin 2048) (n : Fin 64) (e : Fin 1536) : EReal :=
  (∑ c : Fin 512, x (ix3 b n c) * w (ix2 e c)) + qb (ix1 e)

/-- The attention score of head h of window b between tokens i and j: scaled q·k, plus the relative-position bias, plus the window's mask. -/
def scoreS (b : Fin 2048) (h : Fin 16) (i j : Fin 64) : EReal :=
  (∑ d : Fin 32, (qkvS x w qb b i (qcol h d) * scaleW) * qkvS x w qb b j (kcol h d)) + bias (ix3 h i j) + mask (ix3 (mrow b) i j)

/-- A row's maximum as both programs take it: the fold of max from −∞ over the row, then once more against −∞. -/
def rowMax (f : Fin 64 → EReal) : EReal :=
  max negInfW ((Finset.univ : Finset (Fin 64)).fold max negInfW f)

/-- The softmax of a score row at j. -/
def softmaxS (f : Fin 64 → EReal) (j : Fin 64) : EReal :=
  Ideal.div (Ideal.exp (f j - rowMax f)) (∑ k : Fin 64, Ideal.exp (f k - rowMax f))

/-- The attention probability. -/
def probS (b : Fin 2048) (h : Fin 16) (i j : Fin 64) : EReal :=
  softmaxS (fun k => scoreS x mask w qb bias b h i k) j

/-- Head h's output for token i of window b, lane d. -/
def attnS (b : Fin 2048) (h : Fin 16) (i : Fin 64) (d : Fin 32) : EReal :=
  ∑ j : Fin 64, probS x mask w qb bias b h i j * qkvS x w qb b j (vcol h d)

/-- The result: the heads' outputs, concatenated along the columns, through the output projection. -/
def G (b : Fin 2048) (n : Fin 64) (e : Fin 512) : EReal :=
  (∑ c : Fin 512, attnS x mask w qb bias b (headOf c) n (laneOf c) * pw (ix2 e c)) + pb (ix1 e)

end WinAttn

end
-- ==== Proof.KernelArray.lean ====
/-
  From the kernel's blocks to its whole output array. The grid has 256 points; point t computes eight consecutive
  windows, 8 t … 8 t + 7, of the 2048, each with all 64 tokens and all 512 columns, and writes them back as block
  (t, 0, 0) of the output array. Given that what a point computes is, entry by entry, the attention output `WinAttn.G` at
  the windows it owns (the hypothesis `hblk` of the theorems below), the array after the run is `WinAttn.G` everywhere:
  each point's write-back is its block of that one function, and the blocks cover the array because window b belongs
  to point b / 8.
-/
import proofs.«140612_j15564961481372_1_alg».proof.Proof.Gen.KernelIdeal.Value
import proofs.«140612_j15564961481372_1_alg».proof.Proof.Spec

noncomputable section

namespace WinAttn.Kern

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)
variable (Bias : Dev nD → S16x64x64.Idx → EReal)

/-- The attention output as a function of the six argument arrays of the launch memory and of a relative-position
    bias array. -/
def Gm (c : Dev nD) : Fin 2048 → Fin 64 → Fin 512 → EReal :=
  WinAttn.G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (Bias c)

/-- The grid walks the 2048 windows eight at a time: window `r` of grid point `t`'s block is window `8 t + r` of the
    array. -/
abbrev winAt (t : Fin cfg0.N) (r : Fin 8) : Fin 2048 :=
  ⟨8 * t.val + r.val, by have := t.isLt; have hN : cfg0.N = 256 := N_0; omega⟩

/-- The output's block index at a grid point, decided over the 256 points: the point's own position along the windows,
    and 0 along the tokens and along the columns (a block holds whole windows). -/
theorem outIndex : ∀ t : Fin cfg0.N, win0_7.index t (0 : Fin 3) = t.val ∧ win0_7.index t (1 : Fin 3) = 0
    ∧ win0_7.index t (2 : Fin 3) = 0 :=
  (by decide +kernel : ∀ t : Fin grid0.N, win0_7.index t (0 : Fin 3) = t.val ∧ win0_7.index t (1 : Fin 3) = 0
    ∧ win0_7.index t (2 : Fin 3) = 0)

/-- What a grid point hands back is the block it computed: the output's blocks are never cut short. -/
theorem cut_apply (t : Fin cfg0.N) (v : Vec Ideal S8x64x512 .f32) (y : S8x64x512.Idx) :
    (cfg0.win 7).cut (grid0.coords t) v y = v y := rfl

/-- A function of the whole output array read through grid point `t`'s block: entry `y` of the block is the array's
    entry at window `8 t + y₀`, token `y₁`, column `y₂`. -/
theorem read_blk (t : Fin cfg0.N) (H : S2048x64x512.Idx → EReal) (y : S8x64x512.Idx) (k : S2048x64x512.Idx)
    (h0 : (k 0).val = 8 * t.val + (y 0).val) (h1 : (k 1).val = (y 1).val) (h2 : (k 2).val = (y 2).val) :
    ((cfg0.win 7).blk t).view.read (Elt Ideal) H y = H k := by
  rw [View.read_apply]
  show H _ = H k
  refine congrArg H ?_
  obtain ⟨e0, e1, e2⟩ := outIndex t
  funext a
  apply Fin.ext
  match a with
  | ⟨0, _⟩ => show win0_7.index t (0 : Fin 3) * 8 + 1 * (y 0).val = (k 0).val; rw [e0, h0]; omega
  | ⟨1, _⟩ => show win0_7.index t (1 : Fin 3) * 64 + 1 * (y 1).val = (k 1).val; rw [e1, h1]; omega
  | ⟨2, _⟩ => show win0_7.index t (2 : Fin 3) * 512 + 1 * (y 2).val = (k 2).val; rw [e2, h2]; omega

section
variable (hblk : ∀ (c : Dev nD) (t : Fin cfg0.N) (y : S8x64x512.Idx),
  out0_7 (iblk m c 0 t) (iblk m c 1 t) (iblk m c 2 t) (iblk m c 3 t) (iblk m c 4 t) (iblk m c 5 t) (iblk m c 6 t) y
    = Gm m Bias c (winAt t (y 0)) (y 1) (y 2))
include hblk

/-- What grid point `t` writes back is its block of the attention output. -/
theorem flushed_eq (c : Dev nD) (t : Fin cfg0.N) :
    (dats m 0 c).flushed 7 t
      = ((cfg0.win 7).blk t).view.read (Elt Ideal) (fun i => Gm m Bias c (i 0) (i 1) (i 2)) := by
  rw [Cert.KernelIdeal.Value.flushed7]
  funext y
  exact (cut_apply t _ y).trans ((hblk c t y).trans
    (read_blk t (fun i => Gm m Bias c (i 0) (i 1) (i 2)) y (ix3 (winAt t (y 0)) (y 1) (y 2)) rfl rfl rfl).symm)

end

/-- An entry of the output array lies in grid point `t`'s block iff each coordinate lies in the block's range. -/
theorem mem_blk (t : Fin cfg0.N) (i : S2048x64x512.Idx) :
    i ∈ ((cfg0.win 7).blk t).view.set ↔ ∀ a : Fin 3, win0_7.index t a * S8x64x512.size a ≤ (i a).val
      ∧ (i a).val < win0_7.index t a * S8x64x512.size a + S8x64x512.size a := by
  show i ∈ ((View.whole main_v14).slice (win0_7.rect t)).set ↔ _
  rw [View.set_slice_whole, Rect.mem_set_unit]
  exact Iff.rfl

/-- Every entry of the output array is written: window `b` belongs to grid point `b / 8`. -/
theorem cover (i : S2048x64x512.Idx) :
    ∃ t : Fin cfg0.N, (cfg0.win 7).flush t = true ∧ i ∈ ((cfg0.win 7).blk t).view.set := by
  have hi0 : (i 0).val < 2048 := (i 0).isLt
  have hi1 : (i 1).val < 64 := (i 1).isLt
  have hi2 : (i 2).val < 512 := (i 2).isLt
  have hN : cfg0.N = 256 := N_0
  obtain ⟨t, ht⟩ : ∃ t : Fin cfg0.N, t.val = (i 0).val / 8 := ⟨⟨(i 0).val / 8, by omega⟩, rfl⟩
  obtain ⟨e0, e1, e2⟩ := outIndex t
  refine ⟨t, flush0_7 t, ?_⟩
  rw [mem_blk]
  intro a
  match a with
  | ⟨0, _⟩ =>
    show win0_7.index t (0 : Fin 3) * 8 ≤ (i 0).val ∧ (i 0).val < win0_7.index t (0 : Fin 3) * 8 + 8
    rw [e0, ht]; omega
  | ⟨1, _⟩ =>
    show win0_7.index t (1 : Fin 3) * 64 ≤ (i 1).val ∧ (i 1).val < win0_7.index t (1 : Fin 3) * 64 + 64
    rw [e1]; omega
  | ⟨2, _⟩ =>
    show win0_7.index t (2 : Fin 3) * 512 ≤ (i 2).val ∧ (i 2).val < win0_7.index t (2 : Fin 3) * 512 + 512
    rw [e2]; omega

section
variable (hblk : ∀ (c : Dev nD) (t : Fin cfg0.N) (y : S8x64x512.Idx),
  out0_7 (iblk m c 0 t) (iblk m c 1 t) (iblk m c 2 t) (iblk m c 3 t) (iblk m c 4 t) (iblk m c 5 t) (iblk m c 6 t) y
    = Gm m Bias c (winAt t (y 0)) (y 1) (y 2))
include hblk

/-- The output array after the run is the attention output, entry by entry. -/
theorem final (c : Dev nD) :
    (dats m 0 c).arrAt 7 cfg0.N = fun i => Gm m Bias c (i 0) (i 1) (i 2) :=
  (dats m 0 c).arrAt_eq_of_cover 7 _ (fun t _ => flushed_eq m Bias hblk c t) cover

/-- The run: the output array ends at the attention output of the argument arrays, which end as they were launched. -/
theorem run : θ_run defs (onTc (τ := τ) (main (F := Ideal))) ⟨m, fun _ => 0, ρ⟩ fun r => ∀ c : Dev nD,
      r.2.mem ((c : Thread nD τ).loc main_v14) = (fun i => Gm m Bias c (i 0) (i 1) (i 2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m Bias hblk c), (h c).2⟩)
    (Cert.KernelIdeal.Value.run_blocks m ρ)

end

end WinAttn.Kern

end
-- ==== Proof.RefSpec.lean ====
/-
  The host program of the windowed attention, read index by index.

  Each stage of the host program is a function of the argument arrays; read at an index given by its coordinates it is
  the corresponding stage of the index-by-index description: the fused projection (one column e' < 1536 of q | k | v),
  the three slices of it (the reshape [.., 1536] → [.., 3, 16, 32] sends column 512·s + 32·h + d to (s, h, d)), the
  scores (scaled q·k plus the relative-position bias plus the mask of window b mod 64: the reshape
  [2048, ..] → [32, 64, ..] sends window b to (b / 64, b mod 64)), the row softmax (maximum from −∞, exponentials,
  their sum from 0, the quotient), the weighted sum of v, the concatenation of the heads (the reshape
  [.., 16, 32] → [.., 512] sends (h, d) to column 32·h + d) and the output projection.
  The relative-position bias array is carried as it stands: it is never opened.
-/
import proofs.«140612_j15564961481372_1_alg».proof.Proof.Gen.ReferenceIdeal.Read
import proofs.«140612_j15564961481372_1_alg».proof.Proof.Spec

noncomputable section

open scoped BigOperators

namespace WinAttn.Ref

open Cert.ReferenceIdeal Cert.ReferenceIdeal.Read Idealize.ShloMosaic Idealize.ShloMosaic.ValueIdx WinAttn

variable (x0 : (⟨S2048x64x512, .f32⟩ : BufTy).Contents (Elt Ideal)) (x1 : (⟨S64x64x64, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))
  (x6 : (⟨S225x16, .f32⟩ : BufTy).Contents (Elt Ideal)) (x7 : (⟨S64x64, .i32⟩ : BufTy).Contents (Elt Ideal))

/-! ## The fused projection -/

/-- The left operand of the projection's contraction at (b, n, ·), term k: x at (b, n, k). -/
theorem lidx_proj (b : Fin 2048) (n : Fin 64) (e : Fin 1536) (k : Fin 512) :
    lidx_main_v0 (ix3 b n e) k = ix3 b n k := by
  funext a; match a with | ⟨0, _⟩ => rfl | ⟨1, _⟩ => rfl | ⟨2, _⟩ => rfl

/-- The right operand: the weight at (e, k). -/
theorem ridx_proj (b : Fin 2048) (n : Fin 64) (e : Fin 1536) (k : Fin 512) :
    ridx_main_v0 (ix3 b n e) k = ix2 e k := by
  funext a; match a with | ⟨0, _⟩ => rfl | ⟨1, _⟩ => rfl

/-- The bias row broadcast over windows and tokens reads the bias at the column. -/
theorem bidx_proj (b : Fin 2048) (n : Fin 64) (e : Fin 1536) :
    idx_main_v1 (idx_main_v2 (ix3 b n e)) = ix1 e := by
  funext a; match a with | ⟨0, _⟩ => rfl

/-- The projection plus its bias at (b, n, e) is the fused q | k | v projection. -/
theorem qkv_eq (b : Fin 2048) (n : Fin 64) (e : Fin 1536) :
    val_main_v3 (F := Ideal) x0 x2 x3 (ix3 b n e) = qkvS x0 x2 x3 b n e := by
  rw [val_main_v3_apply, val_main_v0_apply, val_main_v2_apply, val_main_v1_apply]
  unfold qkvS
  simp only [lidx_proj, ridx_proj, bidx_proj]
  rfl

/-! ## The three slices -/

/-- Column of slice s (0: q, 1: k, 2: v), head h, lane d. -/
abbrev col (s : Fin 3) (h : Fin 16) (d : Fin 32) : Fin 1536 := ⟨512 * s.val + (32 * h.val + d.val), by omega⟩

/-- The reshape of the 1536 columns into (slice, head, lane): row-major, so (s, h, d) is column 512·s + 32·h + d. -/
theorem idx_split (b : Fin 2048) (n : Fin 64) (s : Fin 3) (h : Fin 16) (d : Fin 32) :
    idx_main_v4 (ix5 b n s h d) = ix3 b n (col s h d) := by
  have hb := b.isLt; have hn := n.isLt; have hs := s.isLt; have hh := h.isLt; have hd := d.isLt
  funext a; apply Fin.ext
  match a with
  | ⟨0, _⟩ => show ((((b.val * 64 + n.val) * 3 + s.val) * 16 + h.val) * 32 + d.val) / 98304 = b.val; omega
  | ⟨1, _⟩ => show ((((b.val * 64 + n.val) * 3 + s.val) * 16 + h.val) * 32 + d.val) / 1536 % 64 = n.val; omega
  | ⟨2, _⟩ => show ((((b.val * 64 + n.val) * 3 + s.val) * 16 + h.val) * 32 + d.val) % 1536 = 512 * s.val + (32 * h.val + d.val); omega

/-- The transpose to (slice, window, head, token, lane). -/
theorem idx_perm (s : Fin 3) (b : Fin 2048) (h : Fin 16) (n : Fin 64) (d : Fin 32) :
    idx_main_v5 (ix5 s b h n d) = ix5 b n s h d := by
  funext a; match a with | ⟨0, _⟩ => rfl | ⟨1, _⟩ => rfl | ⟨2, _⟩ => rfl | ⟨3, _⟩ => rfl | ⟨4, _⟩ => rfl

/-- The transposed projection at (s, b, h, n, d) is the fused projection of token n of window b at slice s's column. -/
theorem slices_eq (s : Fin 3) (b : Fin 2048) (h : Fin 16) (n : Fin 64) (d : Fin 32) :
    val_main_v5 (F := Ideal) x0 x2 x3 (ix5 s b h n d) = qkvS x0 x2 x3 b n (col s h d) := by
  rw [val_main_v5_apply, val_main_v4_apply, idx_perm, idx_split]
  exact qkv_eq x0 x2 x3 b n (col s h d)

/-- Dropping the unit slice axis: (b, h, n, d) of the rank-4 array is (0, b, h, n, d) of the slice. -/
theorem idx_unit (b : Fin 2048) (h : Fin 16) (n : Fin 64) (d : Fin 32) :
    idx_main_v7 (ix4 b h n d) = ix5 (0 : Fin 1) b h n d := by
  have hb := b.isLt; have hh := h.isLt; have hn := n.isLt; have hd := d.isLt
  funext a; apply Fin.ext
  match a with
  | ⟨0, _⟩ => rfl
  | ⟨1, _⟩ => show (((b.val * 16 + h.val) * 64 + n.val) * 32 + d.val) / 32768 % 2048 = b.val; omega
  | ⟨2, _⟩ => show (((b.val * 16 + h.val) * 64 + n.val) * 32 + d.val) / 2048 % 16 = h.val; omega
  | ⟨3, _⟩ => show (((b.val * 16 + h.val) * 64 + n.val) * 32 + d.val) / 32 % 64 = n.val; omega
  | ⟨4, _⟩ => show (((b.val * 16 + h.val) * 64 + n.val) * 32 + d.val) % 32 = d.val; omega

/-- The same for the k slice … -/
theorem idx_unit_k (b : Fin 2048) (h : Fin 16) (n : Fin 64) (d : Fin 32) :
    idx_main_v9 (ix4 b h n d) = ix5 (0 : Fin 1) b h n d := idx_unit b h n d

/-- … and the v slice. -/
theorem idx_unit_v (b : Fin 2048) (h : Fin 16) (n : Fin 64) (d : Fin 32) :
    idx_main_v11 (ix4 b h n d) = ix5 (0 : Fin 1) b h n d := idx_unit b h n d

/-- Slice 0 of the transposed projection. -/
theorem idx_slice0 (b : Fin 2048) (h : Fin 16) (n : Fin 64) (d : Fin 32) :
    idx_main_v6 (ix5 (0 : Fin 1) b h n d) = ix5 (0 : Fin 3) b h n d := by
  funext a; apply Fin.ext
  match a with | ⟨0, _⟩ => rfl | ⟨1, _⟩ => rfl | ⟨2, _⟩ => rfl | ⟨3, _⟩ => rfl | ⟨4, _⟩ => rfl

/-- Slice 1. -/
theorem idx_slice1 (b : Fin 2048) (h : Fin 16) (n : Fin 64) (d : Fin 32) :
    idx_main_v8 (ix5 (0 : Fin 1) b h n d) = ix5 (1 : Fin 3) b h n d := by
  funext a; apply Fin.ext
  match a with | ⟨0, _⟩ => rfl | ⟨1, _⟩ => rfl | ⟨2, _⟩ => rfl | ⟨3, _⟩ => rfl | ⟨4, _⟩ => rfl

/-- Slice 2. -/
theorem idx_slice2 (b : Fin 2048) (h : Fin 16) (n : Fin 64) (d : Fin 32) :
    idx_main_v10 (ix5 (0 : Fin 1) b h n d) = ix5 (2 : Fin 3) b h n d := by
  funext a; apply Fin.ext
  match a with | ⟨0, _⟩ => rfl | ⟨1, _⟩ => rfl | ⟨2, _⟩ => rfl | ⟨3, _⟩ => rfl | ⟨4, _⟩ => rfl

theorem col_q (h : Fin 16) (d : Fin 32) : col 0 h d = qcol h d := Fin.ext (by show 512 * 0 + (32 * h.val + d.val) = 32 * h.val + d.val; omega)
theorem col_k (h : Fin 16) (d : Fin 32) : col 1 h d = kcol h d := Fin.ext (by show 512 * 1 + (32 * h.val + d.val) = 512 + (32 * h.val + d.val); omega)
theorem col_v (h : Fin 16) (d : Fin 32) : col 2 h d = vcol h d := Fin.ext (by show 512 * 2 + (32 * h.val + d.val) = 1024 + (32 * h.val + d.val); omega)

/-- q of window b, head h, token n, lane d. -/
theorem q_eq (b : Fin 2048) (h : Fin 16) (n : Fin 64) (d : Fin 32) :
    val_main_v7 (F := Ideal) x0 x2 x3 (ix4 b h n d) = qkvS x0 x2 x3 b n (qcol h d) := by
  rw [val_main_v7_apply, val_main_v6_apply, idx_unit, idx_slice0, slices_eq, col_q]

/-- k of window b, head h, token n, lane d. -/
theorem k_eq (b : Fin 2048) (h : Fin 16) (n : Fin 64) (d : Fin 32) :
    val_main_v9 (F := Ideal) x0 x2 x3 (ix4 b h n d) = qkvS x0 x2 x3 b n (kcol h d) := by
  rw [val_main_v9_apply, val_main_v8_apply, idx_unit_k, idx_slice1, slices_eq, col_k]

/-- v of window b, head h, token n, lane d. -/
theorem v_eq (b : Fin 2048) (h : Fin 16) (n : Fin 64) (d : Fin 32) :
    val_main_v11 (F := Ideal) x0 x2 x3 (ix4 b h n d) = qkvS x0 x2 x3 b n (vcol h d) := by
  rw [val_main_v11_apply, val_main_v10_apply, idx_unit_v, idx_slice2, slices_eq, col_v]

/-! ## The scores -/

/-- The left operand of q·k at (b, h, i, ·), lane d: scaled q of token i. -/
theorem lidx_qk (b : Fin 2048) (h : Fin 16) (i j : Fin 64) (d : Fin 32) :
    lidx_main_v14 (ix4 b h i j) d = ix4 b h i d := by
  funext a; match a with | ⟨0, _⟩ => rfl | ⟨1, _⟩ => rfl | ⟨2, _⟩ => rfl | ⟨3, _⟩ => rfl

/-- The right operand: k of token j. -/
theorem ridx_qk (b : Fin 2048) (h : Fin 16) (i j : Fin 64) (d : Fin 32) :
    ridx_main_v14 (ix4 b h i j) d = ix4 b h j d := by
  funext a; match a with | ⟨0, _⟩ => rfl | ⟨1, _⟩ => rfl | ⟨2, _⟩ => rfl | ⟨3, _⟩ => rfl

/-- The scaled product q·kᵀ of head h of window b between tokens i and j. -/
theorem qk_eq (b : Fin 2048) (h : Fin 16) (i j : Fin 64) :
    val_main_v14 (F := Ideal) x0 x2 x3 (ix4 b h i j)
      = ∑ d : Fin 32, (qkvS x0 x2 x3 b i (qcol h d) * scaleW) * qkvS x0 x2 x3 b j (kcol h d) := by
  rw [val_main_v14_apply]
  refine Finset.sum_congr rfl fun d _ => ?_
  rw [lidx_qk, ridx_qk, val_main_v13_apply, val_main_v12_apply, val_main_cst_apply, q_eq, k_eq]
  rfl

/-- The relative-position bias broadcast over the windows reads it at (h, i, j). -/
theorem idx_bias (b : Fin 2048) (h : Fin 16) (i j : Fin 64) :
    idx_main_v25 (idx_main_v26 (ix4 b h i j)) = ix3 h i j := by
  funext a; match a with | ⟨0, _⟩ => rfl | ⟨1, _⟩ => rfl | ⟨2, _⟩ => rfl

/-- The group of 64 windows that window b belongs to. -/
abbrev wgrp (b : Fin 2048) : Fin 32 := ⟨b.val / 64, by omega⟩

/-- The reshape of the 2048 windows into 32 groups of 64: window b is (b / 64, b mod 64) … -/
theorem idx_win (b : Fin 2048) (h : Fin 16) (i j : Fin 64) :
    idx_main_v32 (ix4 b h i j) = ix5 (wgrp b) (mrow b) h i j := by
  have hb := b.isLt; have hh := h.isLt; have hi := i.isLt; have hj := j.isLt
  funext a; apply Fin.ext
  match a with
  | ⟨0, _⟩ => show (((b.val * 16 + h.val) * 64 + i.val) * 64 + j.val) / 4194304 = b.val / 64; omega
  | ⟨1, _⟩ => show (((b.val * 16 + h.val) * 64 + i.val) * 64 + j.val) / 65536 % 64 = b.val % 64; omega
  | ⟨2, _⟩ => show (((b.val * 16 + h.val) * 64 + i.val) * 64 + j.val) / 4096 % 16 = h.val; omega
  | ⟨3, _⟩ => show (((b.val * 16 + h.val) * 64 + i.val) * 64 + j.val) / 64 % 64 = i.val; omega
  | ⟨4, _⟩ => show (((b.val * 16 + h.val) * 64 + i.val) * 64 + j.val) % 64 = j.val; omega

/-- … and back. -/
theorem idx_win_back (b : Fin 2048) (h : Fin 16) (i j : Fin 64) :
    idx_main_v28 (ix5 (wgrp b) (mrow b) h i j) = ix4 b h i j := by
  have hb := b.isLt; have hh := h.isLt; have hi := i.isLt; have hj := j.isLt
  funext a; apply Fin.ext
  match a with
  | ⟨0, _⟩ => show ((((b.val / 64 * 64 + b.val % 64) * 16 + h.val) * 64 + i.val) * 64 + j.val) / 65536 = b.val; omega
  | ⟨1, _⟩ => show ((((b.val / 64 * 64 + b.val % 64) * 16 + h.val) * 64 + i.val) * 64 + j.val) / 4096 % 16 = h.val; omega
  | ⟨2, _⟩ => show ((((b.val / 64 * 64 + b.val % 64) * 16 + h.val) * 64 + i.val) * 64 + j.val) / 64 % 64 = i.val; omega
  | ⟨3, _⟩ => show ((((b.val / 64 * 64 + b.val % 64) * 16 + h.val) * 64 + i.val) * 64 + j.val) % 64 = j.val; omega

/-- The mask broadcast over the groups and the heads reads it at (window in its group, i, j). -/
theorem idx_mask (g : Fin 32) (r : Fin 64) (h : Fin 16) (i j : Fin 64) :
    idx_main_v29 (idx_main_v30 (ix5 g r h i j)) = ix3 r i j := by
  funext a; match a with | ⟨0, _⟩ => rfl | ⟨1, _⟩ => rfl | ⟨2, _⟩ => rfl

/-- The score of head h of window b between tokens i and j. -/
theorem score_eq (b : Fin 2048) (h : Fin 16) (i j : Fin 64) :
    val_main_v32 (F := Ideal) x0 x1 x2 x3 x6 x7 (ix4 b h i j)
      = scoreS x0 x1 x2 x3 (val_main_v24 (F := Ideal) x6 x7) b h i j := by
  rw [val_main_v32_apply, idx_win, val_main_v31_apply, val_main_v28_apply, idx_win_back, val_main_v27_apply, qk_eq,
    val_main_v26_apply, val_main_v25_apply, idx_bias, val_main_v30_apply, val_main_v29_apply, idx_mask]
  rfl

/-! ## The row softmax -/

/-- Row (b, h, i) with coordinate k put back on the reduced axis. -/
theorem lift_row (hr : S2048x16x64x64.Reduces [3] S2048x16x64) (b : Fin 2048) (h : Fin 16) (i : Fin 64)
    (k : Fin (S2048x16x64x64.size 3)) : hr.lift (ix3 b h i) k = ix4 b h i (⟨k.val, k.isLt⟩ : Fin 64) := by
  funext c; apply Fin.ext
  fin_cases c <;> rfl

/-- The maximum-reduce over the last axis, from the initial value: the fold of max over the row. -/
theorem reduce_max_row (y : S2048x16x64x64.Idx → EReal) (init : S_.Idx → EReal)
    (h' : S2048x16x64x64.ReducesTo [3] S2048x16x64) (hu : 0 < S_.numel) (b : Fin 2048) (h : Fin 16) (i : Fin 64) :
    (Host.reduce (α := EReal) (FloatOps.maximumf (F := Ideal) (φ := .f32)) y init h' hu (ix3 b h i) : EReal)
      = (Finset.univ : Finset (Fin 64)).fold max (init (Shape.Idx.first hu)) (fun k => y (ix4 b h i k)) := by
  have hr : S2048x16x64x64.Reduces [3] S2048x16x64 := by decide
  rw [Host.reduce_eq_fold_single (α := EReal) (FloatOps.maximumf (F := Ideal) (φ := .f32)) y init h' hr hu]
  have hf : (y ∘ hr.lift (ix3 b h i)) = fun k : Fin 64 => y (ix4 b h i k) :=
    funext fun k => congrArg y (lift_row hr b h i k)
  exact congrArg (fun f => Finset.fold max (init (Shape.Idx.first hu)) f (Finset.univ : Finset (Fin 64))) hf

/-- The row maximum: the fold from −∞, then once more against −∞. -/
theorem max_eq (b : Fin 2048) (h : Fin 16) (i : Fin 64) :
    val_main_v35 (F := Ideal) x0 x1 x2 x3 x6 x7 (ix3 b h i)
      = rowMax (fun k => scoreS x0 x1 x2 x3 (val_main_v24 (F := Ideal) x6 x7) b h i k) := by
  rw [val_main_v35_apply, val_main_v34_apply, val_main_cst_2_apply]
  unfold val_main_v33
  rw [reduce_max_row]
  simp only [score_eq]
  rfl

/-- The row maximum broadcast along the row. -/
theorem idx_bcast_max (b : Fin 2048) (h : Fin 16) (i j : Fin 64) :
    idx_main_v36 (idx_main_v37 (ix4 b h i j)) = ix3 b h i := by
  funext a; match a with | ⟨0, _⟩ => rfl | ⟨1, _⟩ => rfl | ⟨2, _⟩ => rfl

/-- The exponential of the score less the row maximum. -/
theorem exp_eq (b : Fin 2048) (h : Fin 16) (i j : Fin 64) :
    val_main_v39 (F := Ideal) x0 x1 x2 x3 x6 x7 (ix4 b h i j)
      = Ideal.exp (scoreS x0 x1 x2 x3 (val_main_v24 (F := Ideal) x6 x7) b h i j
          - rowMax (fun k => scoreS x0 x1 x2 x3 (val_main_v24 (F := Ideal) x6 x7) b h i k)) := by
  rw [val_main_v39_apply, val_main_v38_apply, val_main_v37_apply, val_main_v36_apply, idx_bcast_max, max_eq, score_eq]
  rfl

/-- Term k of the row sum. -/
theorem idx_sum_row (b : Fin 2048) (h : Fin 16) (i : Fin 64) (k : Fin 64) :
    idx_main_v40 (ix3 b h i) k = ix4 b h i k := by
  funext a; match a with | ⟨0, _⟩ => rfl | ⟨1, _⟩ => rfl | ⟨2, _⟩ => rfl | ⟨3, _⟩ => rfl

/-- The row sum of the exponentials: the initial value is the zero word. -/
theorem sum_eq (b : Fin 2048) (h : Fin 16) (i : Fin 64) :
    val_main_v40 (F := Ideal) x0 x1 x2 x3 x6 x7 (ix3 b h i)
      = ∑ j : Fin 64, Ideal.exp (scoreS x0 x1 x2 x3 (val_main_v24 (F := Ideal) x6 x7) b h i j
          - rowMax (fun k => scoreS x0 x1 x2 x3 (val_main_v24 (F := Ideal) x6 x7) b h i k)) := by
  rw [val_main_v40_apply, val_main_cst_3_apply]
  simp only [idx_sum_row, exp_eq]
  show Ideal.ofBits .f32 0x00000000#32 + _ = _
  rw [Ideal.ofBits_zero_f32, zero_add]

/-- The row sum broadcast along the row. -/
theorem idx_bcast_sum (b : Fin 2048) (h : Fin 16) (i j : Fin 64) :
    idx_main_v41 (idx_main_v42 (ix4 b h i j)) = ix3 b h i := by
  funext a; match a with | ⟨0, _⟩ => rfl | ⟨1, _⟩ => rfl | ⟨2, _⟩ => rfl

/-- The attention probability. -/
theorem prob_eq (b : Fin 2048) (h : Fin 16) (i j : Fin 64) :
    val_main_v43 (F := Ideal) x0 x1 x2 x3 x6 x7 (ix4 b h i j)
      = probS x0 x1 x2 x3 (val_main_v24 (F := Ideal) x6 x7) b h i j := by
  rw [val_main_v43_apply, val_main_v42_apply, val_main_v41_apply, idx_bcast_sum, sum_eq, exp_eq]
  rfl

/-! ## The weighted sum of v, the heads side by side, the output projection -/

/-- The left operand of p·v at (b, h, i, ·), term j: the probability of token j. -/
theorem lidx_pv (b : Fin 2048) (h : Fin 16) (i : Fin 64) (d : Fin 32) (j : Fin 64) :
    lidx_main_v44 (ix4 b h i d) j = ix4 b h i j := by
  funext a; match a with | ⟨0, _⟩ => rfl | ⟨1, _⟩ => rfl | ⟨2, _⟩ => rfl | ⟨3, _⟩ => rfl

/-- The right operand: v of token j, lane d. -/
theorem ridx_pv (b : Fin 2048) (h : Fin 16) (i : Fin 64) (d : Fin 32) (j : Fin 64) :
    ridx_main_v44 (ix4 b h i d) j = ix4 b h j d := by
  funext a; match a with | ⟨0, _⟩ => rfl | ⟨1, _⟩ => rfl | ⟨2, _⟩ => rfl | ⟨3, _⟩ => rfl

/-- Head h's output for token i of window b, lane d. -/
theorem attn_eq (b : Fin 2048) (h : Fin 16) (i : Fin 64) (d : Fin 32) :
    val_main_v44 (F := Ideal) x0 x1 x2 x3 x6 x7 (ix4 b h i d)
      = attnS x0 x1 x2 x3 (val_main_v24 (F := Ideal) x6 x7) b h i d := by
  rw [val_main_v44_apply]
  unfold attnS
  refine Finset.sum_congr rfl fun j _ => ?_
  rw [lidx_pv, ridx_pv, prob_eq, v_eq]

/-- The heads side by side: column c of token n is head c / 32, lane c mod 32 (the transpose back to tokens-first, then
    the row-major reshape of (head, lane) into 512 columns). -/
theorem idx_heads (b : Fin 2048) (n : Fin 64) (c : Fin 512) :
    idx_main_v45 (idx_main_v46 (ix3 b n c)) = ix4 b (headOf c) n (laneOf c) := by
  have hb := b.isLt; have hn := n.isLt; have hc := c.isLt
  funext a; apply Fin.ext
  match a with
  | ⟨0, _⟩ => show ((b.val * 64 + n.val) * 512 + c.val) / 32768 = b.val; omega
  | ⟨1, _⟩ => show ((b.val * 64 + n.val) * 512 + c.val) / 32 % 16 = c.val / 32; omega
  | ⟨2, _⟩ => show ((b.val * 64 + n.val) * 512 + c.val) / 512 % 64 = n.val; omega
  | ⟨3, _⟩ => show ((b.val * 64 + n.val) * 512 + c.val) % 32 = c.val % 32; omega

/-- The concatenated heads at (b, n, c). -/
theorem concat_eq (b : Fin 2048) (n : Fin 64) (c : Fin 512) :
    val_main_v46 (F := Ideal) x0 x1 x2 x3 x6 x7 (ix3 b n c)
      = attnS x0 x1 x2 x3 (val_main_v24 (F := Ideal) x6 x7) b (headOf c) n (laneOf c) := by
  rw [val_main_v46_apply, val_main_v45_apply, idx_heads, attn_eq]

/-- The left operand of the output projection at (b, n, ·), term c. -/
theorem lidx_out (b : Fin 2048) (n : Fin 64) (e : Fin 512) (c : Fin 512) :
    lidx_main_v47 (ix3 b n e) c = ix3 b n c := by
  funext a; match a with | ⟨0, _⟩ => rfl | ⟨1, _⟩ => rfl | ⟨2, _⟩ => rfl

/-- The right operand: the output weight at (e, c). -/
theorem ridx_out (b : Fin 2048) (n : Fin 64) (e : Fin 512) (c : Fin 512) :
    ridx_main_v47 (ix3 b n e) c = ix2 e c := by
  funext a; match a with | ⟨0, _⟩ => rfl | ⟨1, _⟩ => rfl

/-- The output bias broadcast over windows and tokens. -/
theorem bidx_out (b : Fin 2048) (n : Fin 64) (e : Fin 512) :
    idx_main_v48 (idx_main_v49 (ix3 b n e)) = ix1 e := by
  funext a; match a with | ⟨0, _⟩ => rfl

/-- The result at (b, n, e). -/
theorem out_eq (b : Fin 2048) (n : Fin 64) (e : Fin 512) :
    val_main_v50 (F := Ideal) x0 x1 x2 x3 x4 x5 x6 x7 (ix3 b n e)
      = G x0 x1 x2 x3 x4 x5 (val_main_v24 (F := Ideal) x6 x7) b n e := by
  rw [val_main_v50_apply, val_main_v47_apply, val_main_v49_apply, val_main_v48_apply, bidx_out]
  unfold G
  simp only [lidx_out, ridx_out, concat_eq]
  rfl

/-- The host program's result, index by index, is the windowed attention of its arguments (the relative-position bias
    array as the program computes it). -/
theorem ref_eq_spec (i : S2048x64x512.Idx) :
    val_main_v50 (F := Ideal) x0 x1 x2 x3 x4 x5 x6 x7 i
      = G x0 x1 x2 x3 x4 x5 (val_main_v24 (F := Ideal) x6 x7) (i 0) (i 1) (i 2) :=
  (congrArg (val_main_v50 (F := Ideal) x0 x1 x2 x3 x4 x5 x6 x7) (eq_ix3 i)).trans
    (out_eq x0 x1 x2 x3 x4 x5 x6 x7 (i 0) (i 1) (i 2))

end WinAttn.Ref

end
-- ==== Proof.Claims.lean ====
/-
  The five claims, assembled.

  The three runs: the kernel's at the word level and at the extended reals each end with the argument arrays as
  launched; the host program's run does too. The idealization rewrote nothing, so the kernel at the extended reals is
  the kernel's own text. The equality of the two results: at the extended reals the kernel's output array ends at the
  windowed attention `WinAttn.G` of the six argument arrays and of a relative-position bias array — given, as the
  hypothesis `hblk`, that what each grid point computes is that function on the eight windows it owns — and the host
  program's result is the same function of its own arguments and of the bias array it gathers; the two launch memories
  agree on the arguments, and the kernel's bias array is the host's gather of the same table by the same indices
  (the hypothesis `hbias`).
-/
import proofs.«140612_j15564961481372_1_alg».proof.Defs
import proofs.«140612_j15564961481372_1_alg».proof.Proof.Gen.Kernel.Frame
import proofs.«140612_j15564961481372_1_alg».proof.Proof.Gen.KernelIdeal.Value
import proofs.«140612_j15564961481372_1_alg».proof.Proof.Gen.ReferenceIdeal.Run
import proofs.«140612_j15564961481372_1_alg».proof.Proof.Gen.ReferenceIdeal.Read
import proofs.«140612_j15564961481372_1_alg».proof.Proof.Gen.Pre_finite_inputs
import proofs.«140612_j15564961481372_1_alg».proof.Proof.KernelArray
import proofs.«140612_j15564961481372_1_alg».proof.Proof.RefSpec

noncomputable section

namespace WinAttn.Claims

open Idealize.ShloMosaic Idealize.ShloMosaic.TcCoe Idealize.SL.Sem

/-- The kernel runs, at the word level, and leaves its arguments as launched. -/
theorem frame_k : Cert.frame_Kernel := fun m ρ _ => Cert.Kernel.Gen.frame m ρ

/-- The same at the extended reals. -/
theorem frame_ki : Cert.frame_KernelIdeal := fun m ρ _ => Cert.KernelIdeal.Gen.frame m ρ

/-- The host program runs and leaves its arguments as launched: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

open Cert.KernelIdeal Cert.KernelIdeal.Gen in
/-- From launch memories that agree on the eight arguments both programs end with the same result array: the windowed
    attention of the arguments, with the relative-position bias array `BiasK m c`, which is the host's gather. -/
theorem algebraic
    (BiasK : ((ℓ : Loc nD τ sig) → Buf (Elt Ideal) ℓ) → Dev nD → S16x64x64.Idx → EReal)
    (hblk : ∀ (m : (ℓ : Loc nD τ sig) → Buf (Elt Ideal) ℓ) (c : Dev nD) (t : Fin cfg0.N) (y : S8x64x512.Idx),
      out0_7 (iblk m c 0 t) (iblk m c 1 t) (iblk m c 2 t) (iblk m c 3 t) (iblk m c 4 t) (iblk m c 5 t) (iblk m c 6 t) y
        = WinAttn.Kern.Gm m (BiasK m) c (WinAttn.Kern.winAt t (y 0)) (y 1) (y 2))
    (hbias : ∀ (m : (ℓ : Loc nD τ sig) → Buf (Elt Ideal) ℓ) (c : Dev nD),
      BiasK m c = Cert.ReferenceIdeal.Read.val_main_v24 (F := Ideal) (m ((c.tc : Thread nD τ).loc main_arg6))
        (m ((c.tc : Thread nD τ).loc main_arg7))) :
    Cert.algebraic_KernelIdeal_ReferenceIdeal := by
  intro m ρ m' ρ' _ hagree
  refine ⟨_, WinAttn.Kern.run m ρ (BiasK m) (hblk m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq]
  funext i
  rw [WinAttn.Ref.ref_eq_spec]
  obtain ⟨h0, h1, h2, h3, h4, h5, h6, h7⟩ := hagree c
  rw [h0, h1, h2, h3, h4, h5, h6, h7, ← hbias m c]
  rfl

end WinAttn.Claims

end
-- ==== Proof.KDots.lean ====
/-
  The four matrix products of the attention body at the ideal values, each read at an output index as a plain sum
  over its one contracted axis:
    the fused projection   [512,512]·[512,1536]:  out(a, e)   = Σ_k l(a, k) · r(k, e)
    the scores             [8,64,32]·[8,64,32]ᵀ:  out(b,i,j)  = Σ_k l(b,i,k) · r(b,j,k)      (batched over the window b)
    probabilities × values [8,64,64]·[8,64,32]:   out(b,i,d)  = Σ_k l(b,i,k) · r(b,k,d)
    the output projection  [512,512]·[512,512]:   out(a, e)   = Σ_k l(a, k) · r(k, e)
  Each accumulates into a zero block, so nothing but the sum is left. An operand index of a product is assembled
  coordinate by coordinate from the output index (batch and free axes) and the contraction index (the contracted axis).
-/
import proofs.«140612_j15564961481372_1_alg».proof.Proof.Gen.KernelIdeal
import Idealize.ShloMosaic.PureOps.Ideal.Laws
import Idealize.ShloMosaic.Lib.ValueIdx

noncomputable section

open scoped BigOperators

namespace WinAttn.Kern

open Idealize.ShloMosaic Idealize.ShloMosaic.ValueIdx Cert.KernelIdeal

theorem dot_qkv_lhs0 (i : S512x1536.Idx) (q : dot_S512x512_S512x1536_S512x1536_1_0_0_1_n_n.contr.Idx) :
    (dot_S512x512_S512x1536_S512x1536_1_0_0_1_n_n.lhsIdx i q 0).val = (i 0).val := by
  unfold DotDims.lhsIdx
  rw [dif_neg (show ¬(0 : Fin S512x512.rank) ∈ dot_S512x512_S512x1536_S512x1536_1_0_0_1_n_n.lhsBatch by decide), dif_pos (show (0 : Fin S512x512.rank) ∈ dot_S512x512_S512x1536_S512x1536_1_0_0_1_n_n.lhsNonContracting by decide)]
  rfl
theorem dot_qkv_lhs1 (i : S512x1536.Idx) (q : dot_S512x512_S512x1536_S512x1536_1_0_0_1_n_n.contr.Idx) :
    (dot_S512x512_S512x1536_S512x1536_1_0_0_1_n_n.lhsIdx i q 1).val = (q ⟨0, by decide⟩).val :=
  dot_S512x512_S512x1536_S512x1536_1_0_0_1_n_n.lhsIdx_val_of_single rfl i q
theorem dot_qkv_rhs0 (i : S512x1536.Idx) (q : dot_S512x512_S512x1536_S512x1536_1_0_0_1_n_n.contr.Idx) :
    (dot_S512x512_S512x1536_S512x1536_1_0_0_1_n_n.rhsIdx i q 0).val = (q ⟨0, by decide⟩).val :=
  dot_S512x512_S512x1536_S512x1536_1_0_0_1_n_n.rhsIdx_val_of_single rfl i q
theorem dot_qkv_rhs1 (i : S512x1536.Idx) (q : dot_S512x512_S512x1536_S512x1536_1_0_0_1_n_n.contr.Idx) :
    (dot_S512x512_S512x1536_S512x1536_1_0_0_1_n_n.rhsIdx i q 1).val = (i 1).val := by
  unfold DotDims.rhsIdx
  rw [dif_neg (show ¬(1 : Fin S512x1536.rank) ∈ dot_S512x512_S512x1536_S512x1536_1_0_0_1_n_n.rhsBatch by decide), dif_pos (show (1 : Fin S512x1536.rank) ∈ dot_S512x512_S512x1536_S512x1536_1_0_0_1_n_n.rhsNonContracting by decide)]
  rfl
/-- The fused projection's product at row a, column e. -/
theorem dot_qkv {φ₁ φ₂ : FTy} (l : FVec Ideal S512x512 φ₁) (r : FVec Ideal S512x1536 φ₂) (a : Fin 512) (e : Fin 1536) :
    matmul (F := Ideal) dot_S512x512_S512x1536_S512x1536_1_0_0_1_n_n none l r (constant S512x1536 .f32 0x00000000#32) (ix2 a e)
      = ∑ k : Fin 512, l (ix2 a k) * r (ix2 k e) := by
  refine (Ideal.matmul_constant_zero_apply dot_S512x512_S512x1536_S512x1536_1_0_0_1_n_n none l r _).trans ?_
  rw [← Equiv.sum_comp (contrEquiv1 dot_S512x512_S512x1536_S512x1536_1_0_0_1_n_n 512 rfl rfl).symm]
  refine Finset.sum_congr rfl fun k _ => ?_
  have hk := contrEquiv1_symm_val dot_S512x512_S512x1536_S512x1536_1_0_0_1_n_n 512 rfl rfl k
  have el : dot_S512x512_S512x1536_S512x1536_1_0_0_1_n_n.lhsIdx (ix2 a e) ((contrEquiv1 dot_S512x512_S512x1536_S512x1536_1_0_0_1_n_n 512 rfl rfl).symm k) = ix2 a k := funext fun a => Fin.ext (by
    match a with
    | ⟨0, _⟩ => exact dot_qkv_lhs0 _ _
    | ⟨1, _⟩ => exact (dot_qkv_lhs1 _ _).trans hk)
  have er : dot_S512x512_S512x1536_S512x1536_1_0_0_1_n_n.rhsIdx (ix2 a e) ((contrEquiv1 dot_S512x512_S512x1536_S512x1536_1_0_0_1_n_n 512 rfl rfl).symm k) = ix2 k e := funext fun a => Fin.ext (by
    match a with
    | ⟨0, _⟩ => exact (dot_qkv_rhs0 _ _).trans hk
    | ⟨1, _⟩ => exact dot_qkv_rhs1 _ _)
  rw [el, er]

theorem dot_qk_lhs0 (i : S8x64x64.Idx) (q : dot_S8x64x32_S8x64x32_S8x64x64_2_2_1_1_0_0.contr.Idx) :
    (dot_S8x64x32_S8x64x32_S8x64x64_2_2_1_1_0_0.lhsIdx i q 0).val = (i 0).val := by
  unfold DotDims.lhsIdx
  rw [dif_pos (show (0 : Fin S8x64x32.rank) ∈ dot_S8x64x32_S8x64x32_S8x64x64_2_2_1_1_0_0.lhsBatch by decide)]
  rfl
theorem dot_qk_lhs1 (i : S8x64x64.Idx) (q : dot_S8x64x32_S8x64x32_S8x64x64_2_2_1_1_0_0.contr.Idx) :
    (dot_S8x64x32_S8x64x32_S8x64x64_2_2_1_1_0_0.lhsIdx i q 1).val = (i 1).val := by
  unfold DotDims.lhsIdx
  rw [dif_neg (show ¬(1 : Fin S8x64x32.rank) ∈ dot_S8x64x32_S8x64x32_S8x64x64_2_2_1_1_0_0.lhsBatch by decide), dif_pos (show (1 : Fin S8x64x32.rank) ∈ dot_S8x64x32_S8x64x32_S8x64x64_2_2_1_1_0_0.lhsNonContracting by decide)]
  rfl
theorem dot_qk_lhs2 (i : S8x64x64.Idx) (q : dot_S8x64x32_S8x64x32_S8x64x64_2_2_1_1_0_0.contr.Idx) :
    (dot_S8x64x32_S8x64x32_S8x64x64_2_2_1_1_0_0.lhsIdx i q 2).val = (q ⟨0, by decide⟩).val :=
  dot_S8x64x32_S8x64x32_S8x64x64_2_2_1_1_0_0.lhsIdx_val_of_single rfl i q
theorem dot_qk_rhs0 (i : S8x64x64.Idx) (q : dot_S8x64x32_S8x64x32_S8x64x64_2_2_1_1_0_0.contr.Idx) :
    (dot_S8x64x32_S8x64x32_S8x64x64_2_2_1_1_0_0.rhsIdx i q 0).val = (i 0).val := by
  unfold DotDims.rhsIdx
  rw [dif_pos (show (0 : Fin S8x64x32.rank) ∈ dot_S8x64x32_S8x64x32_S8x64x64_2_2_1_1_0_0.rhsBatch by decide)]
  rfl
theorem dot_qk_rhs1 (i : S8x64x64.Idx) (q : dot_S8x64x32_S8x64x32_S8x64x64_2_2_1_1_0_0.contr.Idx) :
    (dot_S8x64x32_S8x64x32_S8x64x64_2_2_1_1_0_0.rhsIdx i q 1).val = (i 2).val := by
  unfold DotDims.rhsIdx
  rw [dif_neg (show ¬(1 : Fin S8x64x32.rank) ∈ dot_S8x64x32_S8x64x32_S8x64x64_2_2_1_1_0_0.rhsBatch by decide), dif_pos (show (1 : Fin S8x64x32.rank) ∈ dot_S8x64x32_S8x64x32_S8x64x64_2_2_1_1_0_0.rhsNonContracting by decide)]
  rfl
theorem dot_qk_rhs2 (i : S8x64x64.Idx) (q : dot_S8x64x32_S8x64x32_S8x64x64_2_2_1_1_0_0.contr.Idx) :
    (dot_S8x64x32_S8x64x32_S8x64x64_2_2_1_1_0_0.rhsIdx i q 2).val = (q ⟨0, by decide⟩).val :=
  dot_S8x64x32_S8x64x32_S8x64x64_2_2_1_1_0_0.rhsIdx_val_of_single rfl i q
/-- The score product of window b between tokens i and j: both operands contracted on their lane axis. -/
theorem dot_qk {φ₁ φ₂ : FTy} (l : FVec Ideal S8x64x32 φ₁) (r : FVec Ideal S8x64x32 φ₂) (b : Fin 8) (i j : Fin 64) :
    matmul (F := Ideal) dot_S8x64x32_S8x64x32_S8x64x64_2_2_1_1_0_0 none l r (constant S8x64x64 .f32 0x00000000#32) (ix3 b i j)
      = ∑ k : Fin 32, l (ix3 b i k) * r (ix3 b j k) := by
  refine (Ideal.matmul_constant_zero_apply dot_S8x64x32_S8x64x32_S8x64x64_2_2_1_1_0_0 none l r _).trans ?_
  rw [← Equiv.sum_comp (contrEquiv1 dot_S8x64x32_S8x64x32_S8x64x64_2_2_1_1_0_0 32 rfl rfl).symm]
  refine Finset.sum_congr rfl fun k _ => ?_
  have hk := contrEquiv1_symm_val dot_S8x64x32_S8x64x32_S8x64x64_2_2_1_1_0_0 32 rfl rfl k
  have el : dot_S8x64x32_S8x64x32_S8x64x64_2_2_1_1_0_0.lhsIdx (ix3 b i j) ((contrEquiv1 dot_S8x64x32_S8x64x32_S8x64x64_2_2_1_1_0_0 32 rfl rfl).symm k) = ix3 b i k := funext fun a => Fin.ext (by
    match a with
    | ⟨0, _⟩ => exact dot_qk_lhs0 _ _
    | ⟨1, _⟩ => exact dot_qk_lhs1 _ _
    | ⟨2, _⟩ => exact (dot_qk_lhs2 _ _).trans hk)
  have er : dot_S8x64x32_S8x64x32_S8x64x64_2_2_1_1_0_0.rhsIdx (ix3 b i j) ((contrEquiv1 dot_S8x64x32_S8x64x32_S8x64x64_2_2_1_1_0_0 32 rfl rfl).symm k) = ix3 b j k := funext fun a => Fin.ext (by
    match a with
    | ⟨0, _⟩ => exact dot_qk_rhs0 _ _
    | ⟨1, _⟩ => exact dot_qk_rhs1 _ _
    | ⟨2, _⟩ => exact (dot_qk_rhs2 _ _).trans hk)
  rw [el, er]

theorem dot_pv_lhs0 (i : S8x64x32.Idx) (q : dot_S8x64x64_S8x64x32_S8x64x32_2_1_1_2_0_0.contr.Idx) :
    (dot_S8x64x64_S8x64x32_S8x64x32_2_1_1_2_0_0.lhsIdx i q 0).val = (i 0).val := by
  unfold DotDims.lhsIdx
  rw [dif_pos (show (0 : Fin S8x64x64.rank) ∈ dot_S8x64x64_S8x64x32_S8x64x32_2_1_1_2_0_0.lhsBatch by decide)]
  rfl
theorem dot_pv_lhs1 (i : S8x64x32.Idx) (q : dot_S8x64x64_S8x64x32_S8x64x32_2_1_1_2_0_0.contr.Idx) :
    (dot_S8x64x64_S8x64x32_S8x64x32_2_1_1_2_0_0.lhsIdx i q 1).val = (i 1).val := by
  unfold DotDims.lhsIdx
  rw [dif_neg (show ¬(1 : Fin S8x64x64.rank) ∈ dot_S8x64x64_S8x64x32_S8x64x32_2_1_1_2_0_0.lhsBatch by decide), dif_pos (show (1 : Fin S8x64x64.rank) ∈ dot_S8x64x64_S8x64x32_S8x64x32_2_1_1_2_0_0.lhsNonContracting by decide)]
  rfl
theorem dot_pv_lhs2 (i : S8x64x32.Idx) (q : dot_S8x64x64_S8x64x32_S8x64x32_2_1_1_2_0_0.contr.Idx) :
    (dot_S8x64x64_S8x64x32_S8x64x32_2_1_1_2_0_0.lhsIdx i q 2).val = (q ⟨0, by decide⟩).val :=
  dot_S8x64x64_S8x64x32_S8x64x32_2_1_1_2_0_0.lhsIdx_val_of_single rfl i q
theorem dot_pv_rhs0 (i : S8x64x32.Idx) (q : dot_S8x64x64_S8x64x32_S8x64x32_2_1_1_2_0_0.contr.Idx) :
    (dot_S8x64x64_S8x64x32_S8x64x32_2_1_1_2_0_0.rhsIdx i q 0).val = (i 0).val := by
  unfold DotDims.rhsIdx
  rw [dif_pos (show (0 : Fin S8x64x32.rank) ∈ dot_S8x64x64_S8x64x32_S8x64x32_2_1_1_2_0_0.rhsBatch by decide)]
  rfl
theorem dot_pv_rhs1 (i : S8x64x32.Idx) (q : dot_S8x64x64_S8x64x32_S8x64x32_2_1_1_2_0_0.contr.Idx) :
    (dot_S8x64x64_S8x64x32_S8x64x32_2_1_1_2_0_0.rhsIdx i q 1).val = (q ⟨0, by decide⟩).val :=
  dot_S8x64x64_S8x64x32_S8x64x32_2_1_1_2_0_0.rhsIdx_val_of_single rfl i q
theorem dot_pv_rhs2 (i : S8x64x32.Idx) (q : dot_S8x64x64_S8x64x32_S8x64x32_2_1_1_2_0_0.contr.Idx) :
    (dot_S8x64x64_S8x64x32_S8x64x32_2_1_1_2_0_0.rhsIdx i q 2).val = (i 2).val := by
  unfold DotDims.rhsIdx
  rw [dif_neg (show ¬(2 : Fin S8x64x32.rank) ∈ dot_S8x64x64_S8x64x32_S8x64x32_2_1_1_2_0_0.rhsBatch by decide), dif_pos (show (2 : Fin S8x64x32.rank) ∈ dot_S8x64x64_S8x64x32_S8x64x32_2_1_1_2_0_0.rhsNonContracting by decide)]
  rfl
/-- Probabilities times values for window b, token i, lane d. -/
theorem dot_pv {φ₁ φ₂ : FTy} (l : FVec Ideal S8x64x64 φ₁) (r : FVec Ideal S8x64x32 φ₂) (b : Fin 8) (i : Fin 64) (d : Fin 32) :
    matmul (F := Ideal) dot_S8x64x64_S8x64x32_S8x64x32_2_1_1_2_0_0 none l r (constant S8x64x32 .f32 0x00000000#32) (ix3 b i d)
      = ∑ k : Fin 64, l (ix3 b i k) * r (ix3 b k d) := by
  refine (Ideal.matmul_constant_zero_apply dot_S8x64x64_S8x64x32_S8x64x32_2_1_1_2_0_0 none l r _).trans ?_
  rw [← Equiv.sum_comp (contrEquiv1 dot_S8x64x64_S8x64x32_S8x64x32_2_1_1_2_0_0 64 rfl rfl).symm]
  refine Finset.sum_congr rfl fun k _ => ?_
  have hk := contrEquiv1_symm_val dot_S8x64x64_S8x64x32_S8x64x32_2_1_1_2_0_0 64 rfl rfl k
  have el : dot_S8x64x64_S8x64x32_S8x64x32_2_1_1_2_0_0.lhsIdx (ix3 b i d) ((contrEquiv1 dot_S8x64x64_S8x64x32_S8x64x32_2_1_1_2_0_0 64 rfl rfl).symm k) = ix3 b i k := funext fun a => Fin.ext (by
    match a with
    | ⟨0, _⟩ => exact dot_pv_lhs0 _ _
    | ⟨1, _⟩ => exact dot_pv_lhs1 _ _
    | ⟨2, _⟩ => exact (dot_pv_lhs2 _ _).trans hk)
  have er : dot_S8x64x64_S8x64x32_S8x64x32_2_1_1_2_0_0.rhsIdx (ix3 b i d) ((contrEquiv1 dot_S8x64x64_S8x64x32_S8x64x32_2_1_1_2_0_0 64 rfl rfl).symm k) = ix3 b k d := funext fun a => Fin.ext (by
    match a with
    | ⟨0, _⟩ => exact dot_pv_rhs0 _ _
    | ⟨1, _⟩ => exact (dot_pv_rhs1 _ _).trans hk
    | ⟨2, _⟩ => exact dot_pv_rhs2 _ _)
  rw [el, er]

theorem dot_proj_lhs0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem dot_proj_lhs1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem dot_proj_rhs0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem dot_proj_rhs1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
/-- The output projection's product at row a, column e. -/
theorem dot_proj {φ₁ φ₂ : FTy} (l : FVec Ideal S512x512 φ₁) (r : FVec Ideal S512x512 φ₂) (a e : Fin 512) :
    matmul (F := Ideal) dot_S512x512_S512x512_S512x512_1_0_0_1_n_n none l r (constant S512x512 .f32 0x00000000#32) (ix2 a e)
      = ∑ k : Fin 512, l (ix2 a k) * r (ix2 k e) := by
  refine (Ideal.matmul_constant_zero_apply dot_S512x512_S512x512_S512x512_1_0_0_1_n_n none l r _).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 a e) ((contrEquiv1 dot_S512x512_S512x512_S512x512_1_0_0_1_n_n 512 rfl rfl).symm k) = ix2 a k := funext fun a => Fin.ext (by
    match a with
    | ⟨0, _⟩ => exact dot_proj_lhs0 _ _
    | ⟨1, _⟩ => exact (dot_proj_lhs1 _ _).trans hk)
  have er : dot_S512x512_S512x512_S512x512_1_0_0_1_n_n.rhsIdx (ix2 a e) ((contrEquiv1 dot_S512x512_S512x512_S512x512_1_0_0_1_n_n 512 rfl rfl).symm k) = ix2 k e := funext fun a => Fin.ext (by
    match a with
    | ⟨0, _⟩ => exact (dot_proj_rhs0 _ _).trans hk
    | ⟨1, _⟩ => exact dot_proj_rhs1 _ _)
  rw [el, er]

end WinAttn.Kern

end
-- ==== Proof.KHead.lean ====
/-
  One attention head of the body, for any head: its operations as ONE term in the column offsets of its q, k and v
  slices and the row of its bias slice, and that term read at an index.

  Over the block's fused projection u[8,64,1536], the bias array B[16,64,64] and the block's mask M[8,64,64], head
  (cq, ck, cv, hb) computes, for window r < 8 of the block:
     s(r,i,j) = Σ_{d<32} (u(r,i,cq+d) · σ) · u(r,j,ck+d) + B(hb,i,j) + M(r,i,j)
     p(r,i,j) = exp(s(r,i,j) − m) / Σ_k exp(s(r,i,k) − m),   m = max(−∞, max_k s(r,i,k))
     o(r,i,d) = Σ_{j<64} p(r,i,j) · u(r,j,cv+d)
  The slices, the keepdims reshapes and the broadcasts only move indices; the reductions run over the last axis.
-/
import proofs.«140612_j15564961481372_1_alg».proof.Proof.KDots
import proofs.«140612_j15564961481372_1_alg».proof.Proof.Spec
import Idealize.ShloMosaic.Lib.Pipeline.Value

noncomputable section

open scoped BigOperators

namespace WinAttn.Kern

open Idealize.ShloMosaic Idealize.ShloMosaic.ValueIdx Cert.KernelIdeal Cert.KernelIdeal.Facts₀ Cert.KernelIdeal.Facts

/-! ## Layout -/

/-- A 32-column slice of the projection at column offset c reads column c + d. -/
theorem slice_col (c : ℕ) (h : S8x64x1536.Slices ![0, 0, c] S8x64x32) (bc : c + 32 ≤ 1536)
    (u : S8x64x1536.Idx → EReal) (r : Fin 8) (i : Fin 64) (d : Fin 32) :
    extractStridedSlice S8x64x32 ![0, 0, c] u h (ix3 r i d) = u (ix3 r i ⟨c + d.val, by omega⟩) :=
  extractStridedSlice_apply _ u h _ _ fun a => by
    match a with
    | ⟨0, _⟩ => exact (Nat.zero_add _).symm
    | ⟨1, _⟩ => exact (Nat.zero_add _).symm
    | ⟨2, _⟩ => rfl

/-- Row hb of the bias array, taken out as a [64,64] matrix and laid over the 8 windows of the block, reads B(hb, i, j) whatever the window. -/
theorem bias_over_windows (hb : ℕ) (h : S16x64x64.Slices ![hb, 0, 0] S1x64x64) (bh : hb < 16)
    (B : S16x64x64.Idx → EReal) (r : Fin 8) (i j : Fin 64) :
    broadcastTo S8x64x64 (shapeCast S1x64x64 (shapeCast S64x64 (extractStridedSlice S1x64x64 ![hb, 0, 0] B h) shapeCasts_S1x64x64_S64x64) shapeCasts_S64x64_S1x64x64) broadcasts_S1x64x64_S8x64x64 (ix3 r i j)
      = B (ix3 ⟨hb, bh⟩ i j) := by
  rw [shapeCast_shapeCast]
  refine (broadcastTo_apply _ broadcasts_S1x64x64_S8x64x64 _ (ix3 (0 : Fin 1) i j) fun a => ?_).trans ?_
  · match a with
    | ⟨0, _⟩ => rfl
    | ⟨1, _⟩ => rfl
    | ⟨2, _⟩ => rfl
  · exact extractStridedSlice_apply _ B h _ _ fun a => by
      match a with
      | ⟨0, _⟩ => rfl
      | ⟨1, _⟩ => exact (Nat.zero_add _).symm
      | ⟨2, _⟩ => exact (Nat.zero_add _).symm

/-- A per-row value [8,64], given a trailing unit axis and laid along the row, reads the row's value at every column. -/
theorem along_row (v : S8x64.Idx → EReal) (r : Fin 8) (i j : Fin 64) :
    broadcastTo S8x64x64 (shapeCast S8x64x1 v shapeCasts_S8x64_S8x64x1) broadcasts_S8x64x1_S8x64x64 (ix3 r i j) = v (ix2 r i) := by
  refine (broadcastTo_apply _ broadcasts_S8x64x1_S8x64x64 _ (ix3 r i (0 : Fin 1)) fun a => ?_).trans ?_
  · match a with
    | ⟨0, _⟩ => rfl
    | ⟨1, _⟩ => rfl
    | ⟨2, _⟩ => rfl
  · refine shapeCast_apply v shapeCasts_S8x64_S8x64x1 _ (ix2 r i) ?_
    rw [Shape.rowMajor_val_two, Shape.rowMajor_val_three]
    show r.val * 64 + i.val = (r.val * 64 + i.val) * 1 + 0
    omega

/-! ## The two row reductions -/

/-- The maximum along the last axis: the fold of max from −∞ over the row. -/
theorem row_max (s : FVec Ideal S8x64x64 .f32) (r : Fin 8) (i : Fin 64) :
    multiReduction (F := Ideal) .maximumf [2] S8x64 s 0xFF800000#32 reduces_S8x64x64_S8x64 (.inl rfl) rfl (ix2 r i)
      = (Finset.univ : Finset (Fin 64)).fold max negInfW (fun k => s (ix3 r i k)) := by
  refine (Ideal.multiReduction_maximumf_single s _ reduces_S8x64x64_S8x64 (.inl rfl) rfl (ix2 r i)).trans ?_
  show (Finset.univ : Finset (Fin 64)).fold max negInfW (fun k : Fin 64 => s (reduces_S8x64x64_S8x64.lift (ix2 r i) k)) = _
  refine congrArg (fun f : Fin 64 → EReal => (Finset.univ : Finset (Fin 64)).fold max negInfW f) (funext fun k => congrArg s (funext fun a => Fin.ext ?_))
  match a with
  | ⟨0, _⟩ => rfl
  | ⟨1, _⟩ => rfl
  | ⟨2, _⟩ => rfl

/-- The sum along the last axis, from zero: the plain sum over the row. -/
theorem row_sum (s : FVec Ideal S8x64x64 .f32) (r : Fin 8) (i : Fin 64) :
    multiReduction (F := Ideal) .add [2] S8x64 s 0x00000000#32 reduces_S8x64x64_S8x64 (.inl rfl) rfl (ix2 r i)
      = ∑ k : Fin 64, s (ix3 r i k) := by
  refine (Ideal.multiReduction_add_single s _ reduces_S8x64x64_S8x64 (.inl rfl) rfl (ix2 r i)).trans ?_
  show ∑ k : Fin 64, s (reduces_S8x64x64_S8x64.lift (ix2 r i) k) = _
  refine Finset.sum_congr rfl fun k _ => congrArg s (funext fun a => Fin.ext ?_)
  match a with
  | ⟨0, _⟩ => rfl
  | ⟨1, _⟩ => rfl
  | ⟨2, _⟩ => rfl

/-! ## The head's three stages -/

/-- The score block of a head: scaled q times k over the lanes, plus the head's bias, plus the block's mask. -/
def scoreTerm (cq ck hb : ℕ) (hq : S8x64x1536.Slices ![0, 0, cq] S8x64x32) (hk : S8x64x1536.Slices ![0, 0, ck] S8x64x32)
    (hbs : S16x64x64.Slices ![hb, 0, 0] S1x64x64)
    (u : FVec Ideal S8x64x1536 .f32) (B : FVec Ideal S16x64x64 .f32) (M : Vec Ideal S8x64x64 .f32) : FVec Ideal S8x64x64 .f32 :=
  addf (addf
    (matmul dot_S8x64x32_S8x64x32_S8x64x64_2_2_1_1_0_0 none
      (truncf .bf16 (mulf (extractStridedSlice S8x64x32 ![0, 0, cq] u hq) (broadcast S8x64x32 (Scalar.ofBits .f32 0x3E3504F3#32))) bitsLt_bf16_f32)
      (truncf .bf16 (extractStridedSlice S8x64x32 ![0, 0, ck] u hk) bitsLt_bf16_f32)
      (constant S8x64x64 .f32 0x00000000#32))
    (broadcastTo S8x64x64 (shapeCast S1x64x64 (shapeCast S64x64 (extractStridedSlice S1x64x64 ![hb, 0, 0] B hbs) shapeCasts_S1x64x64_S64x64) shapeCasts_S64x64_S1x64x64) broadcasts_S1x64x64_S8x64x64))
    M

/-- The softmax of a score block along its last axis. -/
def probTerm (s : FVec Ideal S8x64x64 .f32) : FVec Ideal S8x64x64 .f32 :=
  have e : FVec Ideal S8x64x64 .f32 := exp (subf s (broadcastTo S8x64x64 (shapeCast S8x64x1
    (maximumf (broadcast S8x64 (Scalar.ofBits .f32 0xFF800000#32)) (multiReduction .maximumf [2] S8x64 s 0xFF800000#32 reduces_S8x64x64_S8x64 (.inl rfl) rfl))
    shapeCasts_S8x64_S8x64x1) broadcasts_S8x64x1_S8x64x64))
  divf e (broadcastTo S8x64x64 (shapeCast S8x64x1 (multiReduction .add [2] S8x64 e 0x00000000#32 reduces_S8x64x64_S8x64 (.inl rfl) rfl) shapeCasts_S8x64_S8x64x1) broadcasts_S8x64x1_S8x64x64)

/-- A head's output block: its probabilities times its v slice. -/
def headTerm (cq ck cv hb : ℕ) (hq : S8x64x1536.Slices ![0, 0, cq] S8x64x32) (hk : S8x64x1536.Slices ![0, 0, ck] S8x64x32)
    (hv : S8x64x1536.Slices ![0, 0, cv] S8x64x32) (hbs : S16x64x64.Slices ![hb, 0, 0] S1x64x64)
    (u : FVec Ideal S8x64x1536 .f32) (B : FVec Ideal S16x64x64 .f32) (M : Vec Ideal S8x64x64 .f32) : FVec Ideal S8x64x32 .f32 :=
  matmul dot_S8x64x64_S8x64x32_S8x64x32_2_1_1_2_0_0 none
    (truncf .bf16 (probTerm (scoreTerm cq ck hb hq hk hbs u B M)) bitsLt_bf16_f32)
    (truncf .bf16 (extractStridedSlice S8x64x32 ![0, 0, cv] u hv) bitsLt_bf16_f32)
    (constant S8x64x32 .f32 0x00000000#32)

/-- The score at (r, i, j). -/
theorem scoreTerm_apply (cq ck hb : ℕ) (hq : S8x64x1536.Slices ![0, 0, cq] S8x64x32) (hk : S8x64x1536.Slices ![0, 0, ck] S8x64x32)
    (hbs : S16x64x64.Slices ![hb, 0, 0] S1x64x64) (bq : cq + 32 ≤ 1536) (bk : ck + 32 ≤ 1536) (bh : hb < 16)
    (u : FVec Ideal S8x64x1536 .f32) (B : FVec Ideal S16x64x64 .f32) (M : Vec Ideal S8x64x64 .f32) (r : Fin 8) (i j : Fin 64) :
    scoreTerm cq ck hb hq hk hbs u B M (ix3 r i j)
      = (∑ d : Fin 32, (u (ix3 r i ⟨cq + d.val, by omega⟩) * scaleW) * u (ix3 r j ⟨ck + d.val, by omega⟩))
          + B (ix3 ⟨hb, bh⟩ i j) + M (ix3 r i j) := by
  unfold scoreTerm
  refine congrArg (· + M (ix3 r i j)) ?_
  refine congr (congrArg HAdd.hAdd ?_) (bias_over_windows hb hbs bh B r i j)
  refine (dot_qk _ _ r i j).trans (Finset.sum_congr rfl fun d _ => ?_)
  exact congr (congrArg HMul.hMul (congrArg (· * scaleW) (slice_col cq hq bq u r i d))) (slice_col ck hk bk u r j d)

/-- The softmax block at (r, i, j) is the softmax of row (r, i) at j. -/
theorem probTerm_apply (s : FVec Ideal S8x64x64 .f32) (r : Fin 8) (i j : Fin 64) :
    probTerm s (ix3 r i j) = softmaxS (fun k => s (ix3 r i k)) j := by
  have hm : ∀ k : Fin 64, (broadcastTo S8x64x64 (shapeCast S8x64x1
      (maximumf (broadcast S8x64 (Scalar.ofBits (F := Ideal) .f32 0xFF800000#32)) (multiReduction (F := Ideal) .maximumf [2] S8x64 s 0xFF800000#32 reduces_S8x64x64_S8x64 (.inl rfl) rfl))
      shapeCasts_S8x64_S8x64x1) broadcasts_S8x64x1_S8x64x64) (ix3 r i k) = rowMax (fun k => s (ix3 r i k)) := fun k =>
    (along_row _ r i k).trans (congrArg (max negInfW) (row_max s r i))
  unfold probTerm softmaxS
  refine congr (congrArg Ideal.div (congrArg Ideal.exp (congrArg (s (ix3 r i j) - ·) (hm j)))) ?_
  refine (along_row _ r i j).trans ((row_sum _ r i).trans (Finset.sum_congr rfl fun k _ => ?_))
  exact congrArg Ideal.exp (congrArg (s (ix3 r i k) - ·) (hm k))

/-- The head's output at (r, i, d). -/
theorem headTerm_apply (cq ck cv hb : ℕ) (hq : S8x64x1536.Slices ![0, 0, cq] S8x64x32) (hk : S8x64x1536.Slices ![0, 0, ck] S8x64x32)
    (hv : S8x64x1536.Slices ![0, 0, cv] S8x64x32) (hbs : S16x64x64.Slices ![hb, 0, 0] S1x64x64)
    (bq : cq + 32 ≤ 1536) (bk : ck + 32 ≤ 1536) (bv : cv + 32 ≤ 1536) (bh : hb < 16)
    (u : FVec Ideal S8x64x1536 .f32) (B : FVec Ideal S16x64x64 .f32) (M : Vec Ideal S8x64x64 .f32) (r : Fin 8) (i : Fin 64) (d : Fin 32) :
    headTerm cq ck cv hb hq hk hv hbs u B M (ix3 r i d)
      = ∑ j : Fin 64, softmaxS (fun k => (∑ d' : Fin 32, (u (ix3 r i ⟨cq + d'.val, by omega⟩) * scaleW) * u (ix3 r k ⟨ck + d'.val, by omega⟩))
          + B (ix3 ⟨hb, bh⟩ i k) + M (ix3 r i k)) j * u (ix3 r j ⟨cv + d.val, by omega⟩) := by
  unfold headTerm
  refine (dot_pv _ _ r i d).trans (Finset.sum_congr rfl fun j _ => ?_)
  refine congr (congrArg HMul.hMul ?_) (slice_col cv hv bv u r j d)
  refine (probTerm_apply _ r i j).trans ?_
  exact congrArg (softmaxS · j) (funext fun k => scoreTerm_apply cq ck hb hq hk hbs bq bk bh u B M r i k)

end WinAttn.Kern

end
-- ==== Proof.KHeads.lean ====
/-
  The sixteen heads of the body are one head at sixteen offsets: head h slices q at column 32h, k at 512 + 32h, v at
  1024 + 32h of the block's fused projection, and takes row h of the bias array. The body spells each head out with
  its own literal offsets; here each spelled-out head is identified with the generic one, and the list the body
  concatenates with the list of the sixteen generic heads in order.
-/
import proofs.«140612_j15564961481372_1_alg».proof.Proof.KHead
import proofs.«140612_j15564961481372_1_alg».proof.Proof.Gen.KernelIdeal.Skeleton

set_option maxRecDepth 16384

noncomputable section

namespace WinAttn.Kern

open Idealize.ShloMosaic Idealize.ShloMosaic.ValueIdx Cert.KernelIdeal Cert.KernelIdeal.Gen Cert.KernelIdeal.Facts₀ Cert.KernelIdeal.Facts

/-- Head h's q slice lies inside the projection's 1536 columns. -/
theorem slice_q (h : Fin 16) : S8x64x1536.Slices ![0, 0, 32 * h.val] S8x64x32 := ⟨rfl, fun a => by
  match a with
  | ⟨0, _⟩ => exact Nat.le_refl 8
  | ⟨1, _⟩ => exact Nat.le_refl 64
  | ⟨2, _⟩ => show 32 * h.val + 32 ≤ 1536; omega⟩
/-- Head h's k slice likewise. -/
theorem slice_k (h : Fin 16) : S8x64x1536.Slices ![0, 0, 512 + 32 * h.val] S8x64x32 := ⟨rfl, fun a => by
  match a with
  | ⟨0, _⟩ => exact Nat.le_refl 8
  | ⟨1, _⟩ => exact Nat.le_refl 64
  | ⟨2, _⟩ => show 512 + 32 * h.val + 32 ≤ 1536; omega⟩
/-- Head h's v slice likewise. -/
theorem slice_v (h : Fin 16) : S8x64x1536.Slices ![0, 0, 1024 + 32 * h.val] S8x64x32 := ⟨rfl, fun a => by
  match a with
  | ⟨0, _⟩ => exact Nat.le_refl 8
  | ⟨1, _⟩ => exact Nat.le_refl 64
  | ⟨2, _⟩ => show 1024 + 32 * h.val + 32 ≤ 1536; omega⟩
/-- Row h of the bias array is one of its sixteen. -/
theorem slice_b (h : Fin 16) : S16x64x64.Slices ![h.val, 0, 0] S1x64x64 := ⟨rfl, fun a => by
  match a with
  | ⟨0, _⟩ => show h.val + 1 ≤ 16; omega
  | ⟨1, _⟩ => exact Nat.le_refl 64
  | ⟨2, _⟩ => exact Nat.le_refl 64⟩

/-- Head h of the block: the generic head at h's offsets. -/
def headAt (h : Fin 16) (u : FVec Ideal S8x64x1536 .f32) (B : FVec Ideal S16x64x64 .f32) (M : Vec Ideal S8x64x64 .f32) : FVec Ideal S8x64x32 .f32 :=
  headTerm (32 * h.val) (512 + 32 * h.val) (1024 + 32 * h.val) h.val (slice_q h) (slice_k h) (slice_v h) (slice_b h) u B M

variable (x0 : Vec Ideal S8x64x512 .f32) (x1 : Vec Ideal S512x1536 .bf16) (x2 : Vec Ideal S1536 .f32) (x5 : Vec Ideal S16x64x64 .f32) (x6 : Vec Ideal S8x64x64 .f32)

theorem head0_eq : (k0_pay5 (k0_pay3 x0 x1 x2) (k0_pay4 x0 x1 x2 x5 x6)) = headAt 0 (k0_pay1 x0 x1 x2) (k0_pay2 x5) x6 := rfl
theorem head1_eq : (k0_pay6 (k0_pay1 x0 x1 x2) (k0_pay2 x5) x6) = headAt 1 (k0_pay1 x0 x1 x2) (k0_pay2 x5) x6 := rfl
theorem head2_eq : (k0_pay10 (k0_pay7 (k0_pay1 x0 x1 x2)) (k0_pay8 (k0_pay1 x0 x1 x2) (k0_pay2 x5) x6) (k0_pay9 (k0_pay1 x0 x1 x2) (k0_pay2 x5) x6)) = headAt 2 (k0_pay1 x0 x1 x2) (k0_pay2 x5) x6 := rfl
theorem head3_eq : (k0_pay11 (k0_pay1 x0 x1 x2) (k0_pay2 x5) x6) = headAt 3 (k0_pay1 x0 x1 x2) (k0_pay2 x5) x6 := rfl
theorem head4_eq : (k0_pay14 x6 (k0_pay12 (k0_pay1 x0 x1 x2)) (k0_pay13 (k0_pay1 x0 x1 x2) (k0_pay2 x5))) = headAt 4 (k0_pay1 x0 x1 x2) (k0_pay2 x5) x6 := rfl
theorem head5_eq : (k0_pay15 (k0_pay1 x0 x1 x2) (k0_pay2 x5) x6) = headAt 5 (k0_pay1 x0 x1 x2) (k0_pay2 x5) x6 := rfl
theorem head6_eq : (k0_pay19 (k0_pay2 x5) x6 (k0_pay16 (k0_pay1 x0 x1 x2)) (k0_pay17 (k0_pay1 x0 x1 x2)) (k0_pay18 (k0_pay1 x0 x1 x2))) = headAt 6 (k0_pay1 x0 x1 x2) (k0_pay2 x5) x6 := rfl
theorem head7_eq : (k0_pay20 (k0_pay1 x0 x1 x2) (k0_pay2 x5) x6) = headAt 7 (k0_pay1 x0 x1 x2) (k0_pay2 x5) x6 := rfl
theorem head8_eq : (k0_pay21 (k0_pay1 x0 x1 x2) (k0_pay2 x5) x6) = headAt 8 (k0_pay1 x0 x1 x2) (k0_pay2 x5) x6 := rfl
theorem head9_eq : (k0_pay24 (k0_pay22 (k0_pay1 x0 x1 x2)) (k0_pay23 (k0_pay1 x0 x1 x2) (k0_pay2 x5) x6)) = headAt 9 (k0_pay1 x0 x1 x2) (k0_pay2 x5) x6 := rfl
theorem head10_eq : (k0_pay25 (k0_pay1 x0 x1 x2) (k0_pay2 x5) x6) = headAt 10 (k0_pay1 x0 x1 x2) (k0_pay2 x5) x6 := rfl
theorem head11_eq : (k0_pay28 (k0_pay26 (k0_pay1 x0 x1 x2)) (k0_pay27 (k0_pay1 x0 x1 x2) (k0_pay2 x5) x6)) = headAt 11 (k0_pay1 x0 x1 x2) (k0_pay2 x5) x6 := rfl
theorem head12_eq : (k0_pay29 (k0_pay1 x0 x1 x2) (k0_pay2 x5) x6) = headAt 12 (k0_pay1 x0 x1 x2) (k0_pay2 x5) x6 := rfl
theorem head13_eq : (k0_pay33 (k0_pay2 x5) x6 (k0_pay30 (k0_pay1 x0 x1 x2)) (k0_pay31 (k0_pay1 x0 x1 x2)) (k0_pay32 (k0_pay1 x0 x1 x2)) (constant S8x64x64 .f32 0x00000000#32)) = headAt 13 (k0_pay1 x0 x1 x2) (k0_pay2 x5) x6 := rfl
theorem head14_eq : (k0_pay34 (k0_pay1 x0 x1 x2) (k0_pay2 x5) x6) = headAt 14 (k0_pay1 x0 x1 x2) (k0_pay2 x5) x6 := rfl
theorem head15_eq : (k0_pay37 (k0_pay1 x0 x1 x2) (k0_pay36 (k0_pay1 x0 x1 x2) (k0_pay2 x5) x6 (k0_pay35 (k0_pay1 x0 x1 x2)) (Scalar.ofBits .f32 0x3E3504F3#32))) = headAt 15 (k0_pay1 x0 x1 x2) (k0_pay2 x5) x6 := rfl

/-- The list the body concatenates is the sixteen heads in order. -/
theorem heads_list :
    ([⟨S8x64x32, (k0_pay5 (k0_pay3 x0 x1 x2) (k0_pay4 x0 x1 x2 x5 x6))⟩,
      ⟨S8x64x32, (k0_pay6 (k0_pay1 x0 x1 x2) (k0_pay2 x5) x6)⟩,
      ⟨S8x64x32, (k0_pay10 (k0_pay7 (k0_pay1 x0 x1 x2)) (k0_pay8 (k0_pay1 x0 x1 x2) (k0_pay2 x5) x6) (k0_pay9 (k0_pay1 x0 x1 x2) (k0_pay2 x5) x6))⟩,
      ⟨S8x64x32, (k0_pay11 (k0_pay1 x0 x1 x2) (k0_pay2 x5) x6)⟩,
      ⟨S8x64x32, (k0_pay14 x6 (k0_pay12 (k0_pay1 x0 x1 x2)) (k0_pay13 (k0_pay1 x0 x1 x2) (k0_pay2 x5)))⟩,
      ⟨S8x64x32, (k0_pay15 (k0_pay1 x0 x1 x2) (k0_pay2 x5) x6)⟩,
      ⟨S8x64x32, (k0_pay19 (k0_pay2 x5) x6 (k0_pay16 (k0_pay1 x0 x1 x2)) (k0_pay17 (k0_pay1 x0 x1 x2)) (k0_pay18 (k0_pay1 x0 x1 x2)))⟩,
      ⟨S8x64x32, (k0_pay20 (k0_pay1 x0 x1 x2) (k0_pay2 x5) x6)⟩,
      ⟨S8x64x32, (k0_pay21 (k0_pay1 x0 x1 x2) (k0_pay2 x5) x6)⟩,
      ⟨S8x64x32, (k0_pay24 (k0_pay22 (k0_pay1 x0 x1 x2)) (k0_pay23 (k0_pay1 x0 x1 x2) (k0_pay2 x5) x6))⟩,
      ⟨S8x64x32, (k0_pay25 (k0_pay1 x0 x1 x2) (k0_pay2 x5) x6)⟩,
      ⟨S8x64x32, (k0_pay28 (k0_pay26 (k0_pay1 x0 x1 x2)) (k0_pay27 (k0_pay1 x0 x1 x2) (k0_pay2 x5) x6))⟩,
      ⟨S8x64x32, (k0_pay29 (k0_pay1 x0 x1 x2) (k0_pay2 x5) x6)⟩,
      ⟨S8x64x32, (k0_pay33 (k0_pay2 x5) x6 (k0_pay30 (k0_pay1 x0 x1 x2)) (k0_pay31 (k0_pay1 x0 x1 x2)) (k0_pay32 (k0_pay1 x0 x1 x2)) (constant S8x64x64 .f32 0x00000000#32))⟩,
      ⟨S8x64x32, (k0_pay34 (k0_pay1 x0 x1 x2) (k0_pay2 x5) x6)⟩,
      ⟨S8x64x32, (k0_pay37 (k0_pay1 x0 x1 x2) (k0_pay36 (k0_pay1 x0 x1 x2) (k0_pay2 x5) x6 (k0_pay35 (k0_pay1 x0 x1 x2)) (Scalar.ofBits .f32 0x3E3504F3#32)))⟩] : List ((s : Shape) × (s.Idx → EReal)))
      = List.ofFn fun h : Fin 16 => (⟨S8x64x32, headAt h (k0_pay1 x0 x1 x2) (k0_pay2 x5) x6⟩ : (s : Shape) × (s.Idx → EReal)) := by
  simp only [List.ofFn_succ, List.ofFn_zero]
  rfl

end WinAttn.Kern

end
-- ==== Proof.KProj.lean ====
/-
  The two dense projections of the body, each read at (window r, token n, output column e):
  the block [8,64,512] is viewed as 512 rows (row 64r + n), multiplied by a [512, N] matrix, a bias row is added to
  every row, and the rows are viewed as [8,64,N] again. So the entry is Σ_{k<512} v(r,n,k) · W(k,e) + bias(e):
  N = 1536 for the fused q | k | v projection of the input block, N = 512 for the output projection of the
  concatenated heads. The two row-major views are inverse to each other on (r, n) ↔ 64r + n.
-/
import proofs.«140612_j15564961481372_1_alg».proof.Proof.KDots
import proofs.«140612_j15564961481372_1_alg».proof.Proof.Gen.KernelIdeal.Skeleton
import Idealize.ShloMosaic.Lib.Pipeline.Value
import Idealize.ShloMosaic.Lib.ValueLayout

noncomputable section

open scoped BigOperators

namespace WinAttn.Kern

open Idealize.ShloMosaic Idealize.ShloMosaic.ValueIdx Cert.KernelIdeal Cert.KernelIdeal.Facts₀ Cert.KernelIdeal.Facts

/-- The fused q | k | v projection of the input block. -/
theorem proj_in_apply (v : Vec Ideal S8x64x512 .f32) (wT : Vec Ideal S512x1536 .bf16) (bs : Vec Ideal S1536 .f32) (r : Fin 8) (n : Fin 64) (e : Fin 1536) :
    Gen.k0_pay1 v wT bs (ix3 r n e) = (∑ k : Fin 512, v (ix3 r n k) * wT (ix2 k e)) + bs (ix1 e) := by
  unfold Gen.k0_pay1
  refine (shapeCast_apply _ shapeCasts_S512x1536_S8x64x1536 _ (ix2 (⟨64 * r.val + n.val, by omega⟩ : Fin 512) e) ?_).trans ?_
  · rw [Shape.rowMajor_val_two, Shape.rowMajor_val_three]
    show (64 * r.val + n.val) * 1536 + e.val = (r.val * 64 + n.val) * 1536 + e.val
    omega
  · refine congr (congrArg HAdd.hAdd ?_) ?_
    · refine (dot_qkv _ _ _ e).trans (Finset.sum_congr rfl fun k _ => congr (congrArg HMul.hMul ?_) ?_)
      · exact shapeCast_apply _ shapeCasts_S8x64x512_S512x512 _ (ix3 r n k) (by
          rw [Shape.rowMajor_val_two, Shape.rowMajor_val_three]
          show (r.val * 64 + n.val) * 512 + k.val = (64 * r.val + n.val) * 512 + k.val
          omega)
      · exact congrFun (shapeCast_self _ _) _
    · exact (broadcastTo_1b_ab_apply _ broadcasts_S1x1536_S512x1536 _ e).trans (shapeCast_a_1a_apply bs shapeCasts_S1536_S1x1536 0 e)

/-- The output projection of the concatenated heads. -/
theorem proj_out_apply (v : FVec Ideal S8x64x512 .f32) (wT : Vec Ideal S512x512 .bf16) (bs : Vec Ideal S512 .f32) (r : Fin 8) (n : Fin 64) (e : Fin 512) :
    Gen.k0_pay38 v wT bs (ix3 r n e) = (∑ k : Fin 512, v (ix3 r n k) * wT (ix2 k e)) + bs (ix1 e) := by
  unfold Gen.k0_pay38
  refine (shapeCast_apply _ shapeCasts_S512x512_S8x64x512 _ (ix2 (⟨64 * r.val + n.val, by omega⟩ : Fin 512) e) ?_).trans ?_
  · rw [Shape.rowMajor_val_two, Shape.rowMajor_val_three]
    show (64 * r.val + n.val) * 512 + e.val = (r.val * 64 + n.val) * 512 + e.val
    omega
  · refine congr (congrArg HAdd.hAdd ?_) ?_
    · refine (dot_proj _ _ _ e).trans (Finset.sum_congr rfl fun k _ => congr (congrArg HMul.hMul ?_) ?_)
      · exact shapeCast_apply _ shapeCasts_S8x64x512_S512x512 _ (ix3 r n k) (by
          rw [Shape.rowMajor_val_two, Shape.rowMajor_val_three]
          show (r.val * 64 + n.val) * 512 + k.val = (64 * r.val + n.val) * 512 + k.val
          omega)
      · exact congrFun (shapeCast_self _ _) _
    · exact (broadcastTo_1b_ab_apply _ broadcasts_S1x512_S512x512 _ e).trans (shapeCast_a_1a_apply bs shapeCasts_S512_S1x512 0 e)

end WinAttn.Kern

end
-- ==== Proof.KBody.lean ====
/-
  The whole body at one entry. With the block's seven inputs read off the arrays — the block of x is rows of window
  b, the weight blocks are the transposed weight matrices, the mask block's row r is the mask of window b mod 64, the
  bias block is the bias array —, the value the body stores at (r, n, e) is the attention result G(b, n, e):
    the fused projection of the block is qkv(b, ·, ·);
    head h's output block at (r, i, d) is attn(b, h, i, d);
    the 16 heads concatenated along the columns read head c / 32, lane c mod 32 at column c;
    the output projection sums them against the projection weights and adds its bias.
-/
import proofs.«140612_j15564961481372_1_alg».proof.Proof.KHeads
import proofs.«140612_j15564961481372_1_alg».proof.Proof.KProj
import proofs.«140612_j15564961481372_1_alg».proof.Proof.Gen.KernelIdeal.Frame

set_option maxRecDepth 16384

noncomputable section

open scoped BigOperators

namespace WinAttn.Kern

open Idealize.ShloMosaic Idealize.ShloMosaic.ValueIdx Cert.KernelIdeal Cert.KernelIdeal.Facts₀ Cert.KernelIdeal.Facts

/-- Every offset of a whole-block access is zero. -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- A concatenation depends on its list of pieces only. -/
theorem concatenate_congr {α : Type} {t : Shape} (a : Fin t.rank) (xs ys : List ((s : Shape) × (s.Idx → α))) (e : xs = ys)
    (h : Shape.Concatenates (xs.map (·.1)) t a) : concatenate t a xs h = concatenate t a ys (e ▸ h) := by
  subst e; rfl

/-- Sixteen pieces of 32 columns make up the 512 columns, whatever the pieces hold. -/
theorem sixteen_concat (f : Fin 16 → (S8x64x32.Idx → EReal)) :
    Shape.Concatenates ((List.ofFn fun h : Fin 16 => (⟨S8x64x32, f h⟩ : (s : Shape) × (s.Idx → EReal))).map (·.1)) S8x64x512 2 := by
  rw [List.map_ofFn]
  show Shape.Concatenates (List.ofFn fun _ : Fin 16 => S8x64x32) S8x64x512 2
  decide

variable (x0 : Vec Ideal S8x64x512 .f32) (x1 : Vec Ideal S512x1536 .bf16) (x2 : Vec Ideal S1536 .f32)
  (x3 : Vec Ideal S512x512 .bf16) (x4 : Vec Ideal S512 .f32) (x5 : Vec Ideal S16x64x64 .f32) (x6 : Vec Ideal S8x64x64 .f32)

/-- The sixteen heads, concatenated along the columns, at column c: head c / 32 at lane c mod 32. -/
theorem heads_concat_apply (u : FVec Ideal S8x64x1536 .f32) (B : FVec Ideal S16x64x64 .f32) (M : Vec Ideal S8x64x64 .f32)
    (hc : Shape.Concatenates ((List.ofFn fun h : Fin 16 => (⟨S8x64x32, headAt h u B M⟩ : (s : Shape) × (s.Idx → EReal))).map (·.1)) S8x64x512 2)
    (r : Fin 8) (n : Fin 64) (c : Fin 512) :
    concatenate S8x64x512 2 (List.ofFn fun h : Fin 16 => (⟨S8x64x32, headAt h u B M⟩ : (s : Shape) × (s.Idx → EReal))) hc (ix3 r n c)
      = headAt (headOf c) u B M (ix3 r n (laneOf c)) :=
  concatenate_ofFn_apply (t := S8x64x512) (s₁ := S8x64x32) 2 (fun h : Fin 16 => headAt h u B M) hc rfl 32 rfl (ix3 r n c) (headOf c) rfl
    (ix3 r n (laneOf c)) rfl fun b hb => by
      match b with
      | ⟨0, _⟩ => rfl
      | ⟨1, _⟩ => rfl
      | ⟨2, _⟩ => exact absurd rfl hb

/-- The body's stored block is the output projection of the sixteen heads, concatenated, of the block's fused projection. -/
theorem out_eq : Gen.out0_7 x0 x1 x2 x3 x4 x5 x6
    = Gen.k0_pay38 (concatenate S8x64x512 2 (List.ofFn fun h : Fin 16 => (⟨S8x64x32, headAt h (Gen.k0_pay1 x0 x1 x2) (Gen.k0_pay2 x5) x6⟩ : (s : Shape) × (s.Idx → EReal)))
        (sixteen_concat fun h => headAt h (Gen.k0_pay1 x0 x1 x2) (Gen.k0_pay2 x5) x6)) x3 x4 := by
  unfold Gen.out0_7
  rw [View.canon_unit_zero zero3]
  have l0 : View.ld x0 Gen.r0_0 = x0 := View.ld_unit_zero (S := S8x64x512) zero3 _ x0
  have l1 : View.ld x1 Gen.r0_1 = x1 := View.ld_unit_zero (S := S512x1536) zero2 _ x1
  have l2 : View.ld x2 Gen.r0_2 = x2 := View.ld_unit_zero (S := S1536) zero1 _ x2
  have l5 : View.ld x5 Gen.r0_3 = x5 := View.ld_unit_zero (S := S16x64x64) zero3 _ x5
  have l6 : View.ld x6 Gen.r0_4 = x6 := View.ld_unit_zero (S := S8x64x64) zero3 _ x6
  have l3 : View.ld x3 Gen.r0_5 = x3 := View.ld_unit_zero (S := S512x512) zero2 _ x3
  have l4 : View.ld x4 Gen.r0_6 = x4 := View.ld_unit_zero (S := S512) zero1 _ x4
  rw [l0, l1, l2, l3, l4, l5, l6]
  have e := concatenate_congr (α := EReal) (t := S8x64x512) (2 : Fin 3) _ _ (heads_list x0 x1 x2 x5 x6) concatenates_S8x64x32_S8x64x32_S8x64x32_S8x64x32_S8x64x32_S8x64x32_S8x64x32_S8x64x32_S8x64x32_S8x64x32_S8x64x32_S8x64x32_S8x64x32_S8x64x32_S8x64x32_S8x64x32_S8x64x512_d2
  exact congrArg (fun v : FVec Ideal S8x64x512 .f32 => Gen.k0_pay38 v x3 x4) e

variable (x : (⟨3, ![2048, 64, 512]⟩ : Shape).Idx → EReal) (mask : (⟨3, ![64, 64, 64]⟩ : Shape).Idx → EReal)
  (w : (⟨2, ![1536, 512]⟩ : Shape).Idx → EReal) (qb : (⟨1, ![1536]⟩ : Shape).Idx → EReal)
  (pw : (⟨2, ![512, 512]⟩ : Shape).Idx → EReal) (pb : (⟨1, ![512]⟩ : Shape).Idx → EReal)
  (bias : (⟨3, ![16, 64, 64]⟩ : Shape).Idx → EReal)

/-- The body's value at (r, n, e) is G(b, n, e), when its blocks are the arrays' blocks for window b = row r of the point. -/
theorem body_is_window (b : Fin 2048) (r : Fin 8)
    (h0 : ∀ (n : Fin 64) (k : Fin 512), x0 (ix3 r n k) = x (ix3 b n k))
    (h1 : ∀ (k : Fin 512) (e : Fin 1536), x1 (ix2 k e) = w (ix2 e k))
    (h2 : ∀ e : Fin 1536, x2 (ix1 e) = qb (ix1 e))
    (h3 : ∀ k e : Fin 512, x3 (ix2 k e) = pw (ix2 e k))
    (h4 : ∀ e : Fin 512, x4 (ix1 e) = pb (ix1 e))
    (h5 : ∀ (h : Fin 16) (i j : Fin 64), x5 (ix3 h i j) = bias (ix3 h i j))
    (h6 : ∀ i j : Fin 64, x6 (ix3 r i j) = mask (ix3 (mrow b) i j))
    (n : Fin 64) (e : Fin 512) :
    Gen.out0_7 x0 x1 x2 x3 x4 x5 x6 (ix3 r n e) = G x mask w qb pw pb bias b n e := by
  have hU : ∀ (i : Fin 64) (e' : Fin 1536), Gen.k0_pay1 x0 x1 x2 (ix3 r i e') = qkvS x w qb b i e' := fun i e' =>
    (proj_in_apply x0 x1 x2 r i e').trans
      (congr (congrArg HAdd.hAdd (Finset.sum_congr rfl fun k _ => congr (congrArg HMul.hMul (h0 i k)) (h1 k e'))) (h2 e'))
  have hB : ∀ (h : Fin 16) (i j : Fin 64), Gen.k0_pay2 x5 (ix3 h i j) = bias (ix3 h i j) := fun h i j =>
    (congrFun (shapeCast_self x5 shapeCasts_S16x64x64_S16x64x64) _).trans (h5 h i j)
  have hhead : ∀ (h : Fin 16) (i : Fin 64) (d : Fin 32),
      headAt h (Gen.k0_pay1 x0 x1 x2) (Gen.k0_pay2 x5) x6 (ix3 r i d) = attnS x mask w qb bias b h i d := fun h i d => by
    unfold headAt
    refine (headTerm_apply _ _ _ _ (slice_q h) (slice_k h) (slice_v h) (slice_b h) (by omega) (by omega) (by omega) h.isLt _ _ _ r i d).trans ?_
    unfold attnS probS
    refine Finset.sum_congr rfl fun j _ => congr (congrArg HMul.hMul (congrArg (softmaxS · j) (funext fun k => ?_))) ?_
    · unfold scoreS
      refine congr (congrArg HAdd.hAdd (congr (congrArg HAdd.hAdd (Finset.sum_congr rfl fun d' _ => ?_)) (hB h i k))) (h6 i k)
      exact congr (congrArg HMul.hMul (congrArg (· * scaleW) (hU i _)))
        ((hU k _).trans (congrArg (qkvS x w qb b k) (Fin.ext (Nat.add_assoc _ _ _))))
    · exact (hU j _).trans (congrArg (qkvS x w qb b j) (Fin.ext (Nat.add_assoc _ _ _)))
  rw [out_eq x0 x1 x2 x3 x4 x5 x6]
  refine (proj_out_apply _ x3 x4 r n e).trans ?_
  unfold G
  refine congr (congrArg HAdd.hAdd (Finset.sum_congr rfl fun c _ => congr (congrArg HMul.hMul ?_) (h3 c e))) (h4 e)
  exact (heads_concat_apply _ _ _ _ r n c).trans (hhead (headOf c) n (laneOf c))

end WinAttn.Kern

end
-- ==== Proof.KernelBlocks.lean ====
/-
  What the kernel reads at a grid point, entry by entry, in terms of the arguments of the program. Point t sees: eight
  consecutive windows of x, 8 t … 8 t + 7; the mask windows of those eight, (8 t + r) mod 64, which is block t mod 8 of
  the 64 mask windows; and, whole, the two bias vectors, the two weight matrices — each transposed beforehand, so that
  entry (k, e) of the operand is entry (e, k) of the argument, the narrowing of their entries being the identity on the
  extended reals — and the relative-position bias array, gathered beforehand from the bias table (`biasHost`).
-/
import proofs.«140612_j15564961481372_1_alg».proof.Proof.KernelArray
import Idealize.ShloMosaic.Lib.ValueLayout

noncomputable section

namespace WinAttn.Kern

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## Where each window's block sits at a grid point -/

/-- The input x moves with the output: at point `t` its block index is `(t, 0, 0)`. -/
theorem index_x : ∀ t : Fin cfg0.N, win0_0.index t (0 : Fin 3) = t.val ∧ win0_0.index t (1 : Fin 3) = 0
    ∧ win0_0.index t (2 : Fin 3) = 0 :=
  (by decide +kernel : ∀ t : Fin grid0.N, win0_0.index t (0 : Fin 3) = t.val ∧ win0_0.index t (1 : Fin 3) = 0
    ∧ win0_0.index t (2 : Fin 3) = 0)

/-- The mask's 64 windows come eight at a time with period 8: at point `t` its block index is `(t mod 8, 0, 0)`. -/
theorem index_mask : ∀ t : Fin cfg0.N, win0_6.index t (0 : Fin 3) = t.val % 8 ∧ win0_6.index t (1 : Fin 3) = 0
    ∧ win0_6.index t (2 : Fin 3) = 0 :=
  (by decide +kernel : ∀ t : Fin grid0.N, win0_6.index t (0 : Fin 3) = t.val % 8 ∧ win0_6.index t (1 : Fin 3) = 0
    ∧ win0_6.index t (2 : Fin 3) = 0)

/-- The weights, the biases and the relative-position bias are whole arrays at every point: block index 0 on every axis. -/
theorem index_whole : ∀ t : Fin cfg0.N,
    (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 3) = 0 ∧ win0_5.index t (1 : Fin 3) = 0 ∧ win0_5.index t (2 : Fin 3) = 0) :=
  (by decide +kernel : ∀ t : Fin grid0.N,
    (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 3) = 0 ∧ win0_5.index t (1 : Fin 3) = 0 ∧ win0_5.index t (2 : Fin 3) = 0))

/-! ## The arrays the host side prepares before the kernel -/

/-- The relative-position bias array as the host side computes it before the kernel: the index table flattened to
    4096 entries, a negative index wrapped by the table's 225 rows, the table's rows gathered at those indices, and the
    [4096, 16] result laid out as [16, 64, 64] (head first). The gather stays one term. -/
def biasHost (tbl : S225x16.Idx → EReal) (idx : (⟨S64x64, .i32⟩ : BufTy).Contents (Elt Ideal)) : S16x64x64.Idx → EReal :=
  transpose S16x64x64 [2, 0, 1]
    (shapeCast S64x64x16
      (Host.gather gather_S225x16_S4096x1_S4096x16_1_0_n_n_0_1_116 tbl
        (broadcastInDim S4096x1 ![0] bcast_S4096_S4096x1_0
          (select
            (cmpi .slt (shapeCast S4096 idx shapeCasts_S64x64_S4096)
              (broadcastInDim S4096 ![] bcast_S_S4096 (constantI S_ 32 0#32)))
            (addi (shapeCast S4096 idx shapeCasts_S64x64_S4096)
              (broadcastInDim S4096 ![] bcast_S_S4096 (constantI S_ 32 225#32)))
            (shapeCast S4096 idx shapeCasts_S64x64_S4096))))
      shapeCasts_S4096x16_S64x64x16)
    transposes_S64x64x16_S16x64x64_2_0_1

/-- The kernel's relative-position bias operand, when the kernel starts, is `biasHost` of the bias table and the index table. -/
theorem V_bias (c : Dev nD) : (V m c main_v9 : S16x64x64.Idx → EReal)
    = biasHost (m ((c : Thread nD τ).loc main_arg6)) (m ((c : Thread nD τ).loc main_arg7)) := by
  dsimp only [Gen.V, Gen.hostOps0]; after_results; rfl

/-- The kernel's QKV weight operand, when the kernel starts, is the weight argument transposed (its narrowing is the identity on the extended reals). -/
theorem V_w (c : Dev nD) : (V m c main_v11 : S512x1536.Idx → EReal)
    = (transpose S512x1536 [1, 0] (truncf (F := Ideal) .bf16 (m ((c : Thread nD τ).loc main_arg2) : FVec Ideal S1536x512 .f32) bitsLt_bf16_f32)
        transposes_S1536x512_S512x1536_1_0 : S512x1536.Idx → EReal) := by
  dsimp only [Gen.V, Gen.hostOps0]; after_results

/-- The kernel's output-projection weight operand, when the kernel starts, is the weight argument transposed. -/
theorem V_pw (c : Dev nD) : (V m c main_v13 : S512x512.Idx → EReal)
    = (transpose S512x512 [1, 0] (truncf (F := Ideal) .bf16 (m ((c : Thread nD τ).loc main_arg4) : FVec Ideal S512x512 .f32) bitsLt_bf16_f32)
        transposes_S512x512_S512x512_1_0 : S512x512.Idx → EReal) := by
  dsimp only [Gen.V, Gen.hostOps0]; after_results

/-! ## Each window's block at a grid point, entry by entry -/

/-- Window `r` of point `t`'s block of x is window `8 t + r` of x. -/
theorem blk_x (c : Dev nD) (t : Fin cfg0.N) (r : Fin 8) (n : Fin 64) (k : Fin 512) :
    (iblk m c 0 t : Vec Ideal S8x64x512 .f32) (ix3 r n k)
      = (m ((c : Thread nD τ).loc main_arg0) : S2048x64x512.Idx → EReal) (ix3 (winAt t r) n k) := by
  obtain ⟨e0, e1, e2⟩ := index_x t
  unfold iblk
  rw [View.read_apply]
  show V m c main_arg0 _ = _
  rw [V_main_arg0]
  refine congrArg _ ?_
  funext a
  apply Fin.ext
  match a with
  | ⟨0, _⟩ => show win0_0.index t (0 : Fin 3) * 8 + 1 * r.val = 8 * t.val + r.val; rw [e0]; omega
  | ⟨1, _⟩ => show win0_0.index t (1 : Fin 3) * 64 + 1 * n.val = n.val; rw [e1]; omega
  | ⟨2, _⟩ => show win0_0.index t (2 : Fin 3) * 512 + 1 * k.val = k.val; rw [e2]; omega

/-- Window `r` of point `t`'s block of the mask is the mask of window `8 t + r`: mask window `(8 t + r) mod 64`. -/
theorem blk_mask (c : Dev nD) (t : Fin cfg0.N) (r : Fin 8) (i j : Fin 64) :
    (iblk m c 6 t : Vec Ideal S8x64x64 .f32) (ix3 r i j)
      = (m ((c : Thread nD τ).loc main_arg1) : S64x64x64.Idx → EReal) (ix3 (WinAttn.mrow (winAt t r)) i j) := by
  obtain ⟨e0, e1, e2⟩ := index_mask t
  unfold iblk
  rw [View.read_apply]
  show V m c main_arg1 _ = _
  rw [V_main_arg1]
  refine congrArg _ ?_
  funext a
  apply Fin.ext
  match a with
  | ⟨0, _⟩ => show win0_6.index t (0 : Fin 3) * 8 + 1 * r.val = (8 * t.val + r.val) % 64; rw [e0]; omega
  | ⟨1, _⟩ => show win0_6.index t (1 : Fin 3) * 64 + 1 * i.val = i.val; rw [e1]; omega
  | ⟨2, _⟩ => show win0_6.index t (2 : Fin 3) * 64 + 1 * j.val = j.val; rw [e2]; omega

/-- The QKV bias block is the whole bias argument. -/
theorem blk_qb (c : Dev nD) (t : Fin cfg0.N) (e : Fin 1536) :
    (iblk m c 2 t : Vec Ideal S1536 .f32) (ix1 e) = (m ((c : Thread nD τ).loc main_arg3) : S1536.Idx → EReal) (ix1 e) := by
  obtain ⟨-, e0, -⟩ := index_whole t
  unfold iblk
  rw [View.read_apply]
  show V m c main_arg3 _ = _
  rw [V_main_arg3]
  refine congrArg _ ?_
  funext a
  apply Fin.ext
  match a with
  | ⟨0, _⟩ => show win0_2.index t (0 : Fin 1) * 1536 + 1 * e.val = e.val; rw [e0]; omega

/-- The output-projection bias block is the whole bias argument. -/
theorem blk_pb (c : Dev nD) (t : Fin cfg0.N) (e : Fin 512) :
    (iblk m c 4 t : Vec Ideal S512 .f32) (ix1 e) = (m ((c : Thread nD τ).loc main_arg5) : S512.Idx → EReal) (ix1 e) := by
  obtain ⟨-, -, -, e0, -⟩ := index_whole t
  unfold iblk
  rw [View.read_apply]
  show V m c main_arg5 _ = _
  rw [V_main_arg5]
  refine congrArg _ ?_
  funext a
  apply Fin.ext
  match a with
  | ⟨0, _⟩ => show win0_4.index t (0 : Fin 1) * 512 + 1 * e.val = e.val; rw [e0]; omega

/-- The QKV weight block at (input column `k`, output column `e`) is the weight argument at `(e, k)`. -/
theorem blk_w (c : Dev nD) (t : Fin cfg0.N) (k : Fin 512) (e : Fin 1536) :
    (iblk m c 1 t : Vec Ideal S512x1536 .bf16) (ix2 k e)
      = (m ((c : Thread nD τ).loc main_arg2) : S1536x512.Idx → EReal) (ix2 e k) := by
  obtain ⟨⟨e0, e1⟩, -⟩ := index_whole t
  unfold iblk
  rw [View.read_apply]
  show (V m c main_v11 : S512x1536.Idx → EReal) _ = _
  rw [V_w]
  have hidx : ((cfg0.win 1).blk t).view.emb (ix2 k e) = (ix2 k e : S512x1536.Idx) := by
    funext a
    apply Fin.ext
    match a with
    | ⟨0, _⟩ => show win0_1.index t (0 : Fin 2) * 512 + 1 * k.val = k.val; rw [e0]; omega
    | ⟨1, _⟩ => show win0_1.index t (1 : Fin 2) * 1536 + 1 * e.val = e.val; rw [e1]; omega
  rw [hidx, transpose_ix2_apply]
  rfl

/-- The output-projection weight block at (input column `k`, output column `e`) is the weight argument at `(e, k)`. -/
theorem blk_pw (c : Dev nD) (t : Fin cfg0.N) (k : Fin 512) (e : Fin 512) :
    (iblk m c 3 t : Vec Ideal S512x512 .bf16) (ix2 k e)
      = (m ((c : Thread nD τ).loc main_arg4) : S512x512.Idx → EReal) (ix2 e k) := by
  obtain ⟨-, -, ⟨e0, e1⟩, -⟩ := index_whole t
  unfold iblk
  rw [View.read_apply]
  show (V m c main_v13 : S512x512.Idx → EReal) _ = _
  rw [V_pw]
  have hidx : ((cfg0.win 3).blk t).view.emb (ix2 k e) = (ix2 k e : S512x512.Idx) := by
    funext a
    apply Fin.ext
    match a with
    | ⟨0, _⟩ => show win0_3.index t (0 : Fin 2) * 512 + 1 * k.val = k.val; rw [e0]; omega
    | ⟨1, _⟩ => show win0_3.index t (1 : Fin 2) * 512 + 1 * e.val = e.val; rw [e1]; omega
  rw [hidx, transpose_ix2_apply]
  rfl

/-- The relative-position bias block is the whole array the host side prepared. -/
theorem blk_bias (c : Dev nD) (t : Fin cfg0.N) (h : Fin 16) (i j : Fin 64) :
    (iblk m c 5 t : Vec Ideal S16x64x64 .f32) (ix3 h i j)
      = biasHost (m ((c : Thread nD τ).loc main_arg6)) (m ((c : Thread nD τ).loc main_arg7)) (ix3 h i j) := by
  obtain ⟨-, -, -, -, e0, e1, e2⟩ := index_whole t
  unfold iblk
  rw [View.read_apply]
  show (V m c main_v9 : S16x64x64.Idx → EReal) _ = _
  rw [V_bias]
  refine congrArg _ ?_
  funext a
  apply Fin.ext
  match a with
  | ⟨0, _⟩ => show win0_5.index t (0 : Fin 3) * 16 + 1 * h.val = h.val; rw [e0]; omega
  | ⟨1, _⟩ => show win0_5.index t (1 : Fin 3) * 64 + 1 * i.val = i.val; rw [e1]; omega
  | ⟨2, _⟩ => show win0_5.index t (2 : Fin 3) * 64 + 1 * j.val = j.val; rw [e2]; omega

end WinAttn.Kern

end
-- ==== Proof.Hblk.lean ====
/-
  Every grid point writes back the attention result of its own eight windows.
  Point t holds windows 8t … 8t + 7. Its block of x is their rows; its mask block is the mask of windows
  (8t + r) mod 64; the weight, bias-row and bias-array blocks are the whole arrays (the weights transposed, as the
  host laid them out). So the body's value at (r, n, e) is G at window 8t + r, token n, column e.
-/
import proofs.«140612_j15564961481372_1_alg».proof.Proof.KBody
import proofs.«140612_j15564961481372_1_alg».proof.Proof.KernelBlocks

noncomputable section

namespace WinAttn.Kern

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The relative-position bias array as the region finds it: the host's gather from the bias table at the index matrix. -/
def biasOf (c : Dev nD) : S16x64x64.Idx → EReal :=
  biasHost (m ((c.tc : Thread nD τ).loc main_arg6)) (m ((c.tc : Thread nD τ).loc main_arg7))

/-- What point t's body stores at y is G at window 8t + y₀. -/
theorem hblk (c : Dev nD) (t : Fin cfg0.N) (y : S8x64x512.Idx) :
    out0_7 (iblk m c 0 t) (iblk m c 1 t) (iblk m c 2 t) (iblk m c 3 t) (iblk m c 4 t) (iblk m c 5 t) (iblk m c 6 t) y
      = Gm m (biasOf m) c (winAt t (y 0)) (y 1) (y 2) := by
  obtain ⟨r, n, e, rfl⟩ : ∃ (r : Fin 8) (n : Fin 64) (e : Fin 512), y = ix3 r n e := ⟨y 0, y 1, y 2, eq_ix3 y⟩
  exact body_is_window (iblk m c 0 t) (iblk m c 1 t) (iblk m c 2 t) (iblk m c 3 t) (iblk m c 4 t) (iblk m c 5 t) (iblk m c 6 t)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (biasOf m c) (winAt t r) r (blk_x m c t r) (blk_w m c t) (blk_qb m c t) (blk_pw m c t) (blk_pb m c t) (blk_bias m c t)
    (blk_mask m c t r) n e

end WinAttn.Kern

end
-- ==== Proof.BiasSame.lean ====
/-
  The relative-position bias array is the same on both sides. Before anything else each program flattens the
  [64, 64] index table to 4096 entries, wraps a negative index by the bias table's 225 rows (compare with 0, add 225,
  select), gathers the table's rows at those indices and lays the [4096, 16] result out as [16, 64, 64], head first.
  The two programs spell this one chain of operations over the same literal shapes and the same gather dimension
  numbers, so the two terms are one term: nothing of the gather is opened.
-/
import proofs.«140612_j15564961481372_1_alg».proof.Proof.KernelBlocks
import proofs.«140612_j15564961481372_1_alg».proof.Proof.Gen.ReferenceIdeal.Read

noncomputable section

namespace WinAttn

open Idealize.ShloMosaic

/-- The kernel program's bias array, as its host side prepares it, is the host program's. -/
theorem bias_same (tbl : Cert.KernelIdeal.S225x16.Idx → EReal)
    (idx : (⟨Cert.KernelIdeal.S64x64, .i32⟩ : BufTy).Contents (Elt Ideal)) :
    WinAttn.Kern.biasHost tbl idx = Cert.ReferenceIdeal.Read.val_main_v24 (F := Ideal) tbl idx := by
  unfold WinAttn.Kern.biasHost Cert.ReferenceIdeal.Read.val_main_v24 Cert.ReferenceIdeal.Read.val_main_v23
    Cert.ReferenceIdeal.Read.val_main_v22 Cert.ReferenceIdeal.Read.val_main_v21 Cert.ReferenceIdeal.Read.val_main_v20
    Cert.ReferenceIdeal.Read.val_main_v19 Cert.ReferenceIdeal.Read.val_main_v18 Cert.ReferenceIdeal.Read.val_main_v17
    Cert.ReferenceIdeal.Read.val_main_v16 Cert.ReferenceIdeal.Read.val_main_v15 Cert.ReferenceIdeal.Read.val_main_c
    Cert.ReferenceIdeal.Read.val_main_c_0
  rfl

end WinAttn

end
-- ==== Proof.lean ====
/-
  Windowed multi-head attention: a fused kernel against its plain reference, equal on the extended reals.

  Both programs take x[2048,64,512] (2048 windows of 64 tokens), a mask[64,64,64] shared by the windows with period
  64, the fused q | k | v projection (weights [1536,512], bias [1536]), the output projection (weights [512,512],
  bias [512]), and a relative-position bias table [225,16] with its index matrix [64,64]. For window b, token n,
  column e both compute
     G(b,n,e) = Σ_c attn(b, c/32, n, c mod 32) · pw(e,c) + pb(e),
     attn(b,h,i,d) = Σ_j softmax_j( Σ_d' (q(b,h,i,d')·σ)·k(b,h,j,d') + bias(h,i,j) + mask(b mod 64,i,j) ) · v(b,h,j,d),
  q, k, v the three thirds of Σ_c x(b,n,c)·w(e',c) + qb(e'), head h taking 32 consecutive columns of each
  (Spec.lean). The reference does this over whole arrays, moving the head axis by reshapes and transposes
  (RefSpec.lean: the reference's result is G). The kernel takes 8 windows per grid point; its body projects the block
  (KProj.lean), runs the sixteen heads one after another, each on its own column slices (KHead.lean for one head at
  any offsets, KHeads.lean for the sixteen, KDots.lean for the four matrix products as sums), concatenates their
  outputs and projects (KBody.lean: the stored block is G on the point's windows); each input block is the matching
  part of its array (KernelBlocks.lean, Hblk.lean), the 256 blocks tile the result (KernelArray.lean: the kernel's
  run ends with G). The relative-position bias array is gathered from the table by the same host operations in both
  programs (BiasSame.lean). No step uses more than reindexing of finite sums over the extended reals, so the
  inputs' finiteness is never used; the idealization rewrote nothing, so the kernel's idealized text is its own.
  The three frames are the generated ones; the reference's is its generated run with the result dropped (Claims.lean).
-/
import proofs.«140612_j15564961481372_1_alg».proof.Defs
import proofs.«140612_j15564961481372_1_alg».proof.Proof.Gen.Kernel
import proofs.«140612_j15564961481372_1_alg».proof.Proof.Gen.Kernel.Skeleton
import proofs.«140612_j15564961481372_1_alg».proof.Proof.Gen.Kernel.Launch
import proofs.«140612_j15564961481372_1_alg».proof.Proof.Gen.Kernel.Points
import proofs.«140612_j15564961481372_1_alg».proof.Proof.Gen.Kernel.Frame
import proofs.«140612_j15564961481372_1_alg».proof.Proof.Gen.KernelIdeal
import proofs.«140612_j15564961481372_1_alg».proof.Proof.Gen.KernelIdeal.Skeleton
import proofs.«140612_j15564961481372_1_alg».proof.Proof.Gen.KernelIdeal.Launch
import proofs.«140612_j15564961481372_1_alg».proof.Proof.Gen.KernelIdeal.Points
import proofs.«140612_j15564961481372_1_alg».proof.Proof.Gen.KernelIdeal.Frame
import proofs.«140612_j15564961481372_1_alg».proof.Proof.Gen.ReferenceIdeal
import proofs.«140612_j15564961481372_1_alg».proof.Proof.Gen.KernelIdeal.Value
import proofs.«140612_j15564961481372_1_alg».proof.Proof.Gen.ReferenceIdeal.Run
import proofs.«140612_j15564961481372_1_alg».proof.Proof.Gen.ReferenceIdeal.Read
import proofs.«140612_j15564961481372_1_alg».proof.Proof.Gen.Pre_finite_inputs
import proofs.«140612_j15564961481372_1_alg».proof.Proof.Claims
import proofs.«140612_j15564961481372_1_alg».proof.Proof.Hblk
import proofs.«140612_j15564961481372_1_alg».proof.Proof.BiasSame
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  WinAttn.Claims.frame_k, WinAttn.Claims.frame_ki, WinAttn.Claims.frame_ri, WinAttn.Claims.preserves,
  WinAttn.Claims.algebraic (fun m => WinAttn.Kern.biasOf m) (fun m => WinAttn.Kern.hblk m) (fun _ _ => WinAttn.bias_same _ _)⟩

end Cert.Proof

end
